-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256x15 : Shape := ⟨4, ![8, 128, 256, 15]⟩
abbrev S8x128x256 : Shape := ⟨3, ![8, 128, 256]⟩
abbrev S15x128 : Shape := ⟨2, ![15, 128]⟩
abbrev S128 : Shape := ⟨1, ![128]⟩
abbrev S128x128 : Shape := ⟨2, ![128, 128]⟩
abbrev S_ : Shape := ⟨0, ![]⟩

class Facts : Prop where
  bcast_S_S8x128x256x15 : S_.BroadcastsInDim S8x128x256x15 (![] : Fin 0 → Fin S8x128x256x15.rank)
  reducesTo_S8x128x256x15_S_d0_1_2_3 : S8x128x256x15.ReducesTo [0, 1, 2, 3] S_
  h_S_ : 0 < S_.numel
  bcast_S_S15x128 : S_.BroadcastsInDim S15x128 (![] : Fin 0 → Fin S15x128.rank)
  reducesTo_S15x128_S_d0_1 : S15x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x128x256x15 .f32) (main_arg1 : IVec S8x128x256 1) (main_arg2 : FVec F S15x128 .f32) (main_arg3 : FVec F S128 .f32) (main_arg4 : FVec F S128 .f32) (main_arg5 : FVec F S128 .f32) (main_arg6 : FVec F S128x128 .f32) (main_arg7 : FVec F S128 .f32) : IVec S_ 1 :=
  let main_v0 : FVec F S8x128x256x15 .f32 := Host.absf main_arg0
  let main_cst : FVec F S_ .f32 := constant S_ .f32 0x7F800000#32
  let main_v1 : FVec F S8x128x256x15 .f32 := broadcastInDim S8x128x256x15 ![] bcast_S_S8x128x256x15 main_cst
  let main_v2 : IVec S8x128x256x15 1 := cmpf .olt main_v0 main_v1
  let main_c : IVec S_ 1 := constantI S_ 1 1#1
  let main_v3 : IVec S_ 1 := (fun x v => Host.reduce IntOp.andi x v reducesTo_S8x128x256x15_S_d0_1_2_3 h_S_) main_v2 main_c
  let main_v4 : FVec F S15x128 .f32 := Host.absf main_arg2
  let main_cst_0 : FVec F S_ .f32 := constant S_ .f32 0x7F800000#32
  let main_v5 : FVec F S15x128 .f32 := broadcastInDim S15x128 ![] bcast_S_S15x128 main_cst_0
  let main_v6 : IVec S15x128 1 := cmpf .olt main_v4 main_v5
  let main_c_1 : IVec S_ 1 := constantI S_ 1 1#1
  let main_v7 : IVec S_ 1 := (fun x v => Host.reduce IntOp.andi x v reducesTo_S15x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S8x128x256x15 : Shape := ⟨4, ![8, 128, 256, 15]⟩
abbrev S8x128x256 : Shape := ⟨3, ![8, 128, 256]⟩
abbrev S15x128 : Shape := ⟨2, ![15, 128]⟩
abbrev S128 : Shape := ⟨1, ![128]⟩
abbrev S128x128 : Shape := ⟨2, ![128, 128]⟩
abbrev S262144x15 : Shape := ⟨2, ![262144, 15]⟩
abbrev S262144x1 : Shape := ⟨2, ![262144, 1]⟩
abbrev S1x128 : Shape := ⟨2, ![1, 128]⟩
abbrev S2048x15 : Shape := ⟨2, ![2048, 15]⟩
abbrev S2048x1 : Shape := ⟨2, ![2048, 1]⟩
abbrev S2048x128 : Shape := ⟨2, ![2048, 128]⟩
abbrev S_ : Shape := ⟨0, ![]⟩
abbrev S262144x128 : Shape := ⟨2, ![262144, 128]⟩
abbrev S8x128x256x128 : Shape := ⟨4, ![8, 128, 256, 128]⟩

abbrev nBuf : Space → Nat
  | .hbm => 38
  | .vmem => 20
  | .smem => 0
  | _ => 0

abbrev bufTy : (tb : Table) → Fin (tcTables nBuf tb) → BufTy
  | .hbm, ⟨0, _⟩ => ⟨S8x128x256x15, .f32⟩
  | .hbm, ⟨1, _⟩ => ⟨S8x128x256, .i1⟩
  | .hbm, ⟨2, _⟩ => ⟨S15x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S262144x15, .f32⟩
  | .hbm, ⟨9, _⟩ => ⟨S262144x1, .i1⟩
  | .hbm, ⟨10, _⟩ => ⟨S262144x1, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S262144x128, .f32⟩
  | .hbm, ⟨37, _⟩ => ⟨S8x128x256x128, .f32⟩
  | .local _ .vmem, ⟨0, _⟩ => ⟨S2048x15, .f32⟩
  | .local _ .vmem, ⟨1, _⟩ => ⟨S2048x15, .f32⟩
  | .local _ .vmem, ⟨2, _⟩ => ⟨S2048x1, .f32⟩
  | .local _ .vmem, ⟨3, _⟩ => ⟨S2048x1, .f32⟩
  | .local _ .vmem, ⟨4, _⟩ => ⟨S15x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S2048x15, .f32⟩
  | .local _ .vmem, ⟨9, _⟩ => ⟨S2048x15, .f32⟩
  | .local _ .vmem, ⟨10, _⟩ => ⟨S2048x1, .f32⟩
  | .local _ .vmem, ⟨11, _⟩ => ⟨S2048x1, .f32⟩
  | .local _ .vmem, ⟨12, _⟩ => ⟨S15x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2048x128, .f32⟩
  | .local _ .vmem, ⟨19, _⟩ => ⟨S2048x128, .f32⟩
  | _, _ => ⟨S8x128x256x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S15x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x15 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S15x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S8x128x256x15_S262144x15 : S8x128x256x15.ShapeCasts S262144x15
  shapeCasts_S8x128x256_S262144x1 : S8x128x256.ShapeCasts S262144x1
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2048x15_S2048x15_0_0 : ∀ a, (![0, 0] : Fin 2 → Nat) a + S2048x15.size a ≤ S2048x15.size a
  h_S2048x15 : 0 < S2048x15.numel
  shapeCasts_S2048x15_S2048x15 : S2048x15.ShapeCasts S2048x15
  bitsLt_bf16_f32 : FTy.bits .bf16 < FTy.bits .f32
  inb_S15x128_S15x128_0_0 : ∀ a, (![0, 0] : Fin 2 → Nat) a + S15x128.size a ≤ S15x128.size a
  h_S15x128 : 0 < S15x128.numel
  shapeCasts_S1x128_S1x128 : S1x128.ShapeCasts S1x128
  broadcasts_S1x128_S2048x128 : S1x128.Broadcasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  reduces_S2048x128_S128 : S2048x128.Reduces [0] S128
  reducesTo_S262144x1_S_d0_1 : S262144x1.ReducesTo [0, 1] S_
  h_S_ : 0 < S_.numel
  shapeCasts_S1x128_S128 : S1x128.ShapeCasts S128
  bcast_S_S128 : S_.BroadcastsInDim S128 (![] : Fin 0 → Fin S128.rank)
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  shapeCasts_S262144x128_S8x128x256x128 : S262144x128.ShapeCasts S8x128x256x128
  dot_S2048x15_S15x128_S2048x128_1_0_0_1_n_n_wf : DotDims.WF S2048x15 S15x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x15.size a ≤ S262144x15.size a
  hwx0_0 : ∀ i : grid0.Coords, EltTy.bits .f32 = 32 ∨ (Rect.block (s := S262144x15) S2048x15.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .f32 = 32 ∨ (Rect.block (s := S262144x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x128.size a ≤ S15x128.size a
  hwx0_2 : ∀ i : grid0.Coords, EltTy.bits .f32 = 32 ∨ (Rect.block (s := S15x128) S15x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x15.size a ≤ S262144x15.size a
  hwx1_0 : ∀ i : grid1.Coords, EltTy.bits .f32 = 32 ∨ (Rect.block (s := S262144x15) S2048x15.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S262144x1.size a
  hwx1_1 : ∀ i : grid1.Coords, EltTy.bits .f32 = 32 ∨ (Rect.block (s := S262144x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S15x128.size a ≤ S15x128.size a
  hwx1_2 : ∀ i : grid1.Coords, EltTy.bits .f32 = 32 ∨ (Rect.block (s := S15x128) S15x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x128.size a ≤ S262144x128.size a
  hwx1_8 : ∀ i : grid1.Coords, EltTy.bits .f32 = 32 ∨ (Rect.block (s := S262144x128) S2048x128.size (cc1_transform_8 i) (hinb1_8 i)).WholeWords (EltTy.packing .f32)

variable [Facts₀]

def dot_S2048x15_S15x128_S2048x128_1_0_0_1_n_n : DotDims S2048x15 S15x128 S2048x128 where
  lhsContracting := [1]
  rhsContracting := [0]
  lhsNonContracting := [0]
  rhsNonContracting := [1]
  lhsBatch := []
  rhsBatch := []
  wf := dot_S2048x15_S15x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v0) S2048x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S15x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S2048x15.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S15x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S2048x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x128x256x15 : Shape := ⟨4, ![8, 128, 256, 15]⟩
abbrev S8x128x256 : Shape := ⟨3, ![8, 128, 256]⟩
abbrev S15x128 : Shape := ⟨2, ![15, 128]⟩
abbrev S128 : Shape := ⟨1, ![128]⟩
abbrev S128x128 : Shape := ⟨2, ![128, 128]⟩
abbrev S8x128x256x1 : Shape := ⟨4, ![8, 128, 256, 1]⟩
abbrev S8x128x256x128 : Shape := ⟨4, ![8, 128, 256, 128]⟩
abbrev S1x1x1x128 : Shape := ⟨4, ![1, 1, 1, 128]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S8x128x256x15, .f32⟩
  | .hbm, ⟨1, _⟩ => ⟨S8x128x256, .i1⟩
  | .hbm, ⟨2, _⟩ => ⟨S15x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S8x128x256x1, .i1⟩
  | .hbm, ⟨9, _⟩ => ⟨S8x128x256x1, .f32⟩
  | .hbm, ⟨10, _⟩ => ⟨S8x128x256x128, .f32⟩
  | .hbm, ⟨11, _⟩ => ⟨S1x1x1x128, .f32⟩
  | .hbm, ⟨12, _⟩ => ⟨S8x128x256x128, .f32⟩
  | .hbm, ⟨13, _⟩ => ⟨S8x128x256x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8x128x256x128, .f32⟩
  | .hbm, ⟨19, _⟩ => ⟨S8x128x256x128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S1x1x1x128, .f32⟩
  | .hbm, ⟨25, _⟩ => ⟨S8x128x256x128, .f32⟩
  | .hbm, ⟨26, _⟩ => ⟨S8x128x256x128, .f32⟩
  | .hbm, ⟨27, _⟩ => ⟨S8x128x256x128, .f32⟩
  | .hbm, ⟨28, _⟩ => ⟨S8x128x256x128, .f32⟩
  | .hbm, ⟨29, _⟩ => ⟨S8x128x256x128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S1x1x1x128, .f32⟩
  | .hbm, ⟨35, _⟩ => ⟨S8x128x256x128, .f32⟩
  | .hbm, ⟨36, _⟩ => ⟨S8x128x256x128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S1x1x1x128, .f32⟩
  | .hbm, ⟨42, _⟩ => ⟨S8x128x256x128, .f32⟩
  | .hbm, ⟨43, _⟩ => ⟨S8x128x256x128, .f32⟩
  | .hbm, ⟨44, _⟩ => ⟨S1x1x1x128, .f32⟩
  | .hbm, ⟨45, _⟩ => ⟨S8x128x256x128, .f32⟩
  | .hbm, ⟨46, _⟩ => ⟨S8x128x256x128, .f32⟩
  | .hbm, ⟨47, _⟩ => ⟨S1x1x1x128, .f32⟩
  | .hbm, ⟨48, _⟩ => ⟨S8x128x256x128, .f32⟩
  | .hbm, ⟨49, _⟩ => ⟨S8x128x256x128, .f32⟩
  | .hbm, ⟨50, _⟩ => ⟨S_, .f32⟩
  | .hbm, ⟨51, _⟩ => ⟨S8x128x256x128, .f32⟩
  | .hbm, ⟨52, _⟩ => ⟨S8x128x256x128, .f32⟩
  | .hbm, ⟨53, _⟩ => ⟨S8x128x256x128, .f32⟩
  | .hbm, ⟨54, _⟩ => ⟨S1x1x1x128, .f32⟩
  | .hbm, ⟨55, _⟩ => ⟨S8x128x256x128, .f32⟩
  | .hbm, ⟨56, _⟩ => ⟨S8x128x256x128, .f32⟩
  | .hbm, ⟨57, _⟩ => ⟨S8x128x256x128, .f32⟩
  | .hbm, ⟨58, _⟩ => ⟨S8x128x256x128, .f32⟩
  | _, _ => ⟨S8x128x256x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_cst : Ref sig .tc := ⟨.hbm, 50, rfl⟩
abbrev main_call0_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  bcast_S8x128x256_S8x128x256x1_0_1_2 : S8x128x256.BroadcastsInDim S8x128x256x1 (![0, 1, 2] : Fin 3 → Fin S8x128x256x1.rank)
  bcast_S128_S1x1x1x128_3 : S128.BroadcastsInDim S1x1x1x128 (![3] : Fin 1 → Fin S1x1x1x128.rank)
  bcast_S1x1x1x128_S8x128x256x128_0_1_2_3 : S1x1x1x128.BroadcastsInDim S8x128x256x128 (![0, 1, 2, 3] : Fin 4 → Fin S8x128x256x128.rank)
  reducesTo_S8x128x256x1_S_d0_1_2_3 : S8x128x256x1.ReducesTo [0, 1, 2, 3] S_
  h_S_ : 0 < S_.numel
  bcast_S8x128x256x1_S8x128x256x128_0_1_2_3 : S8x128x256x1.BroadcastsInDim S8x128x256x128 (![0, 1, 2, 3] : Fin 4 → Fin S8x128x256x128.rank)
  reducesTo_S8x128x256x128_S128_d0_1_2 : S8x128x256x128.ReducesTo [0, 1, 2] S128
  bcast_S_S128 : S_.BroadcastsInDim S128 (![] : Fin 0 → Fin S128.rank)
  bcast_S_S8x128x256x128 : S_.BroadcastsInDim S8x128x256x128 (![] : Fin 0 → Fin S8x128x256x128.rank)
  dot_S8x128x256x15_S15x128_S8x128x256x128_3_0_012_1_n_n_wf : DotDims.WF S8x128x256x15 S15x128 S8x128x256x128 [3] [0] [0, 1, 2] [1] [] []
  dot_S8x128x256x128_S128x128_S8x128x256x128_3_0_012_1_n_n_wf : DotDims.WF S8x128x256x128 S128x128 S8x128x256x128 [3] [0] [0, 1, 2] [1] [] []

variable [Facts₀]

def dot_S8x128x256x15_S15x128_S8x128x256x128_3_0_012_1_n_n : DotDims S8x128x256x15 S15x128 S8x128x256x128 where
  lhsContracting := [3]
  rhsContracting := [0]
  lhsNonContracting := [0, 1, 2]
  rhsNonContracting := [1]
  lhsBatch := []
  rhsBatch := []
  wf := dot_S8x128x256x15_S15x128_S8x128x256x128_3_0_012_1_n_n_wf
def dot_S8x128x256x128_S128x128_S8x128x256x128_3_0_012_1_n_n : DotDims S8x128x256x128 S128x128 S8x128x256x128 where
  lhsContracting := [3]
  rhsContracting := [0]
  lhsNonContracting := [0, 1, 2]
  rhsNonContracting := [1]
  lhsBatch := []
  rhsBatch := []
  wf := dot_S8x128x256x128_S128x128_S8x128x256x128_3_0_012_1_n_n_wf

class Facts : Prop extends Facts₀ where

variable [Facts]
-- ==== Proof.KernelRun.lean ====
/-
  The idealized kernel program's run, with its result named.

  The program is five stretches: host operations, the statistics region, host operations, the apply region, and a final
  reshape. Every weakly fair execution terminates without a fault; at the end each buffer that lives for the whole
  program holds the value of the last stretch's fold over the buffers (the launch memory pushed through the host
  operations and the two regions' write-backs, in order). The statement below keeps, of that, the result buffer at the
  fold's value and the eight arguments at their launch contents.
-/
import proofs.«131541_j88476326297844_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates without a fault; the result buffer ends at the last
    stretch's fold and the arguments end as launched. -/
theorem run_result : θ_run defs (onTc (τ := τ) (main (F := F))) ⟨m, fun _ => 0, ρ⟩ (fun r => ∀ c : Dev nD,
      r.2.mem ((c.tc : Thread nD τ).loc main_v25) = W5 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v25 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Run

end
-- ==== Proof.StatsCases.lean ====
/-
  The statistics region: what its two accumulator blocks hold after each grid point.

  The region has 128 grid points and two [1,128] outputs whose block never moves. At point 0 the body first stores the
  zero block into both, then in every case it adds to each the point's partial sums: into the first the column sums of
  `h · weight` over the point's 2048 rows, into the second the column sums of `(h · weight) · h`, where
  `h = x · W1 + b1` is the hidden layer of the point's rows. The blocks are written back after the last point only.
-/
import proofs.«131541_j88476326297844_1_alg».proof.Proof.Gen.KernelIdeal.Frame
import Idealize.ShloMosaic.Lib.Pipeline.Value
import Idealize.ShloMosaic.Lib.Tactic

set_option maxRecDepth 16384

noncomputable section

namespace Cert.KernelIdeal.StatsCases

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- After a point other than the first, the first accumulator holds its previous contents plus the point's column sums
    of `h · weight`: the one covering store's value, its loads reading whole buffers. -/
theorem later_first (c : Dev nD) (i : grid0.Coords) (a1 : Memref sig .tc .vmem S2048x15 .f32) (h1 : a1.IsWhole) (a2 : Memref sig .tc .vmem S2048x1 .f32) (h2 : a2.IsWhole)
    (a3 : Memref sig .tc .vmem S15x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole) (hc : ¬cond0_0 i)
    (x0 : Vec F S2048x15 .f32) (x1 : Vec F S2048x1 .f32) (x2 : Vec F S15x128 .f32) (x3 : Vec F S1x128 .f32) (xo4 xo5 : Vec F S1x128 .f32) :
    out0_B_4 c i a1 h1 a2 h2 a3 h3 a4 h4 a5 h5 a6 h6 hc x0 x1 x2 x3 xo4 xo5 = k0_pay5 x0 x2 x3 x1 xo4 := by
  unfold out0_B_4
  rw [View.read_writes_eq_canon _ _ _ (cover0_B_4 c i a1 h1 a2 h2 a3 h3 a4 h4 a5 h5 a6 h6 hc x0 x1 x2 x3 xo4 xo5)]
  unfold kernelRun0_B
  dsimp only
  rw [View.canon_unit_zero hz]
  simp only [View.readAt_eq_ld, h1.read_unread, h2.read_unread, h3.read_unread, h4.read_unread, h5.read_unread, h6.read_unread,
    View.ld_unit_zero (S := S2048x15) hz, View.ld_unit_zero (S := S2048x1) hz, View.ld_unit_zero (S := S15x128) hz, View.ld_unit_zero (S := S1x128) hz]

/-- After a point other than the first, the second accumulator holds its previous contents plus the point's column sums
    of `(h · weight) · h`. -/
theorem later_second (c : Dev nD) (i : grid0.Coords) (a1 : Memref sig .tc .vmem S2048x15 .f32) (h1 : a1.IsWhole) (a2 : Memref sig .tc .vmem S2048x1 .f32) (h2 : a2.IsWhole)
    (a3 : Memref sig .tc .vmem S15x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole) (hc : ¬cond0_0 i)
    (x0 : Vec F S2048x15 .f32) (x1 : Vec F S2048x1 .f32) (x2 : Vec F S15x128 .f32) (x3 : Vec F S1x128 .f32) (xo4 xo5 : Vec F S1x128 .f32) :
    out0_B_5 c i a1 h1 a2 h2 a3 h3 a4 h4 a5 h5 a6 h6 hc x0 x1 x2 x3 xo4 xo5 = k0_pay6 x0 x2 x3 x1 xo5 := by
  unfold out0_B_5
  rw [View.read_writes_eq_canon _ _ _ (cover0_B_5 c i a1 h1 a2 h2 a3 h3 a4 h4 a5 h5 a6 h6 hc x0 x1 x2 x3 xo4 xo5)]
  unfold kernelRun0_B
  dsimp only
  rw [View.canon_unit_zero hz]
  simp only [View.readAt_eq_ld, h1.read_unread, h2.read_unread, h3.read_unread, h4.read_unread, h5.read_unread, h6.read_unread,
    View.ld_unit_zero (S := S2048x15) hz, View.ld_unit_zero (S := S2048x1) hz, View.ld_unit_zero (S := S15x128) hz, View.ld_unit_zero (S := S1x128) hz]

/-- After the first point the first accumulator holds the zero block plus the point's column sums: the body's reset is
    read back by the accumulation that follows it. -/
theorem first_first (c : Dev nD) (i : grid0.Coords) (a1 : Memref sig .tc .vmem S2048x15 .f32) (h1 : a1.IsWhole) (a2 : Memref sig .tc .vmem S2048x1 .f32) (h2 : a2.IsWhole)
    (a3 : Memref sig .tc .vmem S15x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole) (hc : cond0_0 i)
    (x0 : Vec F S2048x15 .f32) (x1 : Vec F S2048x1 .f32) (x2 : Vec F S15x128 .f32) (x3 : Vec F S1x128 .f32) :
    out0_A_4 c i a1 h1 a2 h2 a3 h3 a4 h4 a5 h5 a6 h6 hc x0 x1 x2 x3 = k0_pay5 x0 x2 x3 x1 k0_pay1 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S2048x15) hz, View.ld_unit_zero (S := S2048x1) hz, View.ld_unit_zero (S := S15x128) hz, View.ld_unit_zero (S := S1x128) hz]

/-- After the first point the second accumulator holds the zero block plus the point's column sums. -/
theorem first_second (c : Dev nD) (i : grid0.Coords) (a1 : Memref sig .tc .vmem S2048x15 .f32) (h1 : a1.IsWhole) (a2 : Memref sig .tc .vmem S2048x1 .f32) (h2 : a2.IsWhole)
    (a3 : Memref sig .tc .vmem S15x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole) (hc : cond0_0 i)
    (x0 : Vec F S2048x15 .f32) (x1 : Vec F S2048x1 .f32) (x2 : Vec F S15x128 .f32) (x3 : Vec F S1x128 .f32) :
    out0_A_5 c i a1 h1 a2 h2 a3 h3 a4 h4 a5 h5 a6 h6 hc x0 x1 x2 x3 = k0_pay6 x0 x2 x3 x1 k0_pay2 := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S2048x15) hz, View.ld_unit_zero (S := S2048x1) hz, View.ld_unit_zero (S := S15x128) hz, View.ld_unit_zero (S := S1x128) hz]

end Cert.KernelIdeal.StatsCases

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«131541_j88476326297844_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibColumnSum.lean ====
/-
  A sum along axis 0 of an [n, B] vector, read at a column.

  A kernel that keeps channels down the rows of a tile and samples across its columns reduces along axis 0: the
  result at column q is the sum of the n entries of that column. On the extended reals the reduction from the
  zero accumulator is that plain sum; the library's index of the reduced axis put back into the result index is
  the entry (j, q). Every extent is generic.
-/
import Idealize.ShloMosaic.PureOps.Ideal.Laws
import Idealize.ShloMosaic.Lib.ValueIdx

namespace ColumnSum

open Idealize.ShloMosaic Idealize.ShloMosaic.ValueIdx

variable {n B : ℕ}

/-- Column q with the channel coordinate j put back on axis 0 is the entry (j, q). -/
theorem lift_col (h : Shape.Reduces ⟨2, ![n, B]⟩ [0] ⟨1, ![B]⟩) (q : Fin B) (j : Fin n) :
    h.lift (ix1 q) j = ix2 j q := by
  funext d
  apply Fin.ext
  match d with
  | ⟨0, h0⟩ =>
    show h.liftVal (ix1 q) j.val ⟨0, h0⟩ = j.val
    unfold Shape.Reduces.liftVal
    split
    · rfl
    · next hc => exact absurd rfl hc
  | ⟨1, h1⟩ =>
    show h.liftVal (ix1 q) j.val ⟨1, h1⟩ = q.val
    unfold Shape.Reduces.liftVal
    split
    · next hc => exact absurd hc Nat.one_ne_zero
    · split
      · next hlt => exact absurd hlt (Nat.not_lt_zero _)
      · rfl

/-- A sum along axis 0 from the zero accumulator, at column q: the sum of the column's n entries. -/
theorem colSum_apply (v : FVec Ideal ⟨2, ![n, B]⟩ .f32) (h : Shape.Reduces ⟨2, ![n, B]⟩ [0] ⟨1, ![B]⟩)
    (hφ : FKind.Formats .f32) (hacc : (0x00000000#32 : BitVec 32) = FKind.add.neutral .f32 hφ) (q : Fin B) :
    multiReduction .add [0] ⟨1, ![B]⟩ v 0x00000000#32 h hφ hacc (ix1 q) = ∑ j : Fin n, v (ix2 j q) := by
  refine (Ideal.multiReduction_add_single v 0x00000000#32 h hφ hacc (ix1 q)).trans ?_
  exact Finset.sum_congr rfl fun j _ => congrArg v (lift_col h q j)

end ColumnSum
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.Payload.lean ====
/-
  The two kernel bodies' arithmetic, read at an index on the extended reals.

  The statistics body computes h = x W1 + b1 on a tile of 2048 rows, masks it, and adds to its two accumulators the
  column sums of h m and of (h m) h. The apply body recomputes h, applies the per-feature scale and shift, clamps at
  zero, multiplies by W2, adds the bias row and masks. Each lemma below reads one of the named pure terms of the
  generated skeleton at an entry as plain sums and products.
-/
import proofs.«131541_j88476326297844_1_alg».proof.Proof.Gen.KernelIdeal.Skeleton
import proofs.«131541_j88476326297844_1_alg».proof.Proof.LibDotRecord
import proofs.«131541_j88476326297844_1_alg».proof.Proof.LibColumnSum
import proofs.«131541_j88476326297844_1_alg».proof.Proof.LibRowOps
import Idealize.ShloMosaic.Lib.ValueIdx
import Idealize.ShloMosaic.Lib.Pipeline.Value
import Idealize.ShloMosaic.Lib.ValueLayout
import Idealize.ShloMosaic.PureOps.Ideal.Laws

namespace Cert.KernelIdeal.Payload

open Idealize.ShloMosaic Idealize.ShloMosaic.ValueIdx Cert.KernelIdeal

/-- The first accumulator's initial block is the zero block. -/
theorem pay1_apply (q : Fin 128) : Gen.k0_pay1 (F := Ideal) (ix2 (0 : Fin 1) q) = 0 := by
  unfold Gen.k0_pay1
  exact Ideal.ofBits_zero_f32

/-- The second accumulator's initial block is the zero block. -/
theorem pay2_apply (q : Fin 128) : Gen.k0_pay2 (F := Ideal) (ix2 (0 : Fin 1) q) = 0 := by
  unfold Gen.k0_pay2
  exact Ideal.ofBits_zero_f32

/-- The hidden activation at row p, feature q: the product's sum over the 15 inputs plus the bias row's entry.
    Narrowing an operand's format changes nothing on the extended reals, and a cast to the same shape is the identity. -/
theorem pay3_apply (v3 : Vec Ideal S2048x15 .f32) (v6 : Vec Ideal S15x128 .f32) (v9 : Vec Ideal S1x128 .f32)
    (p : Fin 2048) (q : Fin 128) :
    Gen.k0_pay3 (F := Ideal) v3 v6 v9 (ix2 p q)
      = (∑ c : Fin 15, v3 (ix2 p c) * v6 (ix2 c q)) + v9 (ix2 (0 : Fin 1) q) := by
  unfold Gen.k0_pay3
  refine (addf_apply _ _ (ix2 p q)).trans ?_
  refine congrArg₂ (· + ·) ?_ ?_
  · refine (DotRecord.matmul_zero_apply _ rfl rfl rfl rfl rfl rfl _ _ none p q).trans ?_
    refine Finset.sum_congr rfl fun c _ => ?_
    rw [truncf_apply, truncf_apply, shapeCast_self]
  · refine (broadcastTo_1b_ab_apply _ _ p q).trans ?_
    rw [shapeCast_self]

/-- The masked activation: the hidden activation times the row's mask entry, the mask column being broadcast
    across the features. -/
theorem pay4_apply (v3 : Vec Ideal S2048x15 .f32) (v6 : Vec Ideal S15x128 .f32) (v9 : Vec Ideal S1x128 .f32)
    (v13 : Vec Ideal S2048x1 .f32) (p : Fin 2048) (q : Fin 128) :
    Gen.k0_pay4 (F := Ideal) v3 v6 v9 v13 (ix2 p q)
      = ((∑ c : Fin 15, v3 (ix2 p c) * v6 (ix2 c q)) + v9 (ix2 (0 : Fin 1) q)) * v13 (ix2 p (0 : Fin 1)) := by
  unfold Gen.k0_pay4
  refine (mulf_apply _ _ (ix2 p q)).trans ?_
  refine congrArg₂ (· * ·) (pay3_apply v3 v6 v9 p q) ?_
  refine (Gcn.Lib.broadcastTo_a1_ab_apply _ _ p q).trans ?_
  rw [shapeCast_self]

/-- The first accumulator's update at feature q: its old entry plus the sum over the tile's 2048 rows of the
    masked activation. -/
theorem pay5_apply (v3 : Vec Ideal S2048x15 .f32) (v6 : Vec Ideal S15x128 .f32) (v9 : Vec Ideal S1x128 .f32)
    (v13 : Vec Ideal S2048x1 .f32) (v17 : Vec Ideal S1x128 .f32) (q : Fin 128) :
    Gen.k0_pay5 (F := Ideal) v3 v6 v9 v13 v17 (ix2 (0 : Fin 1) q)
      = v17 (ix2 (0 : Fin 1) q)
        + ∑ r : Fin 2048, ((∑ c : Fin 15, v3 (ix2 r c) * v6 (ix2 c q)) + v9 (ix2 (0 : Fin 1) q)) * v13 (ix2 r (0 : Fin 1)) := by
  unfold Gen.k0_pay5
  refine (addf_apply _ _ (ix2 (0 : Fin 1) q)).trans ?_
  refine congrArg₂ (· + ·) ?_ ?_
  · rw [shapeCast_self]
  · refine (shapeCast_a_1a_apply _ _ (0 : Fin 1) q).trans ?_
    refine (ColumnSum.colSum_apply _ _ _ _ q).trans ?_
    exact Finset.sum_congr rfl fun r _ => pay4_apply v3 v6 v9 v13 r q

/-- The second accumulator's update at feature q: its old entry plus the sum over the tile's rows of the masked
    activation times the activation. -/
theorem pay6_apply (v3 : Vec Ideal S2048x15 .f32) (v6 : Vec Ideal S15x128 .f32) (v9 : Vec Ideal S1x128 .f32)
    (v13 : Vec Ideal S2048x1 .f32) (v23 : Vec Ideal S1x128 .f32) (q : Fin 128) :
    Gen.k0_pay6 (F := Ideal) v3 v6 v9 v13 v23 (ix2 (0 : Fin 1) q)
      = v23 (ix2 (0 : Fin 1) q)
        + ∑ r : Fin 2048, (((∑ c : Fin 15, v3 (ix2 r c) * v6 (ix2 c q)) + v9 (ix2 (0 : Fin 1) q)) * v13 (ix2 r (0 : Fin 1)))
            * ((∑ c : Fin 15, v3 (ix2 r c) * v6 (ix2 c q)) + v9 (ix2 (0 : Fin 1) q)) := by
  unfold Gen.k0_pay6
  refine (addf_apply _ _ (ix2 (0 : Fin 1) q)).trans ?_
  refine congrArg₂ (· + ·) ?_ ?_
  · rw [shapeCast_self]
  · refine (shapeCast_a_1a_apply _ _ (0 : Fin 1) q).trans ?_
    refine (ColumnSum.colSum_apply _ _ _ _ q).trans ?_
    refine Finset.sum_congr rfl fun r _ => ?_
    refine (mulf_apply _ _ (ix2 r q)).trans ?_
    exact congrArg₂ (· * ·) (pay4_apply v3 v6 v9 v13 r q) (pay3_apply v3 v6 v9 r q)

/-- The apply body at row p, output feature q: the hidden activation scaled, shifted and clamped at zero, multiplied
    by the second weight matrix (a sum over the 128 hidden features), plus the bias row's entry, times the mask. -/
theorem apply_pay_apply (v0 : Vec Ideal S2048x15 .f32) (v3 : Vec Ideal S15x128 .f32) (v6 v10 v14 : Vec Ideal S1x128 .f32)
    (v21 : Vec Ideal S128x128 .f32) (v24 : Vec Ideal S1x128 .f32) (v28 : Vec Ideal S2048x1 .f32) (p : Fin 2048) (q : Fin 128) :
    Gen.k1_pay1 (F := Ideal) v0 v3 v6 v10 v14 v21 v24 v28 (ix2 p q)
      = ((∑ d : Fin 128, max ((((∑ c : Fin 15, v0 (ix2 p c) * v3 (ix2 c d)) + v6 (ix2 (0 : Fin 1) d)) * v10 (ix2 (0 : Fin 1) d))
                + v14 (ix2 (0 : Fin 1) d)) 0 * v21 (ix2 d q)) + v24 (ix2 (0 : Fin 1) q)) * v28 (ix2 p (0 : Fin 1)) := by
  unfold Gen.k1_pay1
  refine (mulf_apply _ _ (ix2 p q)).trans ?_
  refine congrArg₂ (· * ·) ?_ ?_
  · refine (addf_apply _ _ (ix2 p q)).trans ?_
    refine congrArg₂ (· + ·) ?_ ?_
    · refine (DotRecord.matmul_zero_apply _ rfl rfl rfl rfl rfl rfl _ _ none p q).trans ?_
      refine Finset.sum_congr rfl fun d _ => ?_
      refine congrArg₂ (· * ·) ?_ ?_
      · refine (truncf_apply (ψ := .bf16) _ Gen.bitsLt_bf16_f32 (ix2 p d)).trans ?_
        refine (maximumf_apply _ _ (ix2 p d)).trans ?_
        refine congrArg₂ max ?_ Ideal.ofBits_zero_f32
        refine (addf_apply _ _ (ix2 p d)).trans ?_
        refine congrArg₂ (· + ·) ?_ ?_
        · refine (mulf_apply _ _ (ix2 p d)).trans ?_
          refine congrArg₂ (· * ·) (pay3_apply v0 v3 v6 p d) ?_
          refine (broadcastTo_1b_ab_apply _ _ p d).trans ?_
          rw [shapeCast_self]
        · refine (broadcastTo_1b_ab_apply _ _ p d).trans ?_
          rw [shapeCast_self]
      · rw [truncf_apply]
    · refine (broadcastTo_1b_ab_apply _ _ p q).trans ?_
      rw [shapeCast_self]
  · refine (Gcn.Lib.broadcastTo_a1_ab_apply _ _ p q).trans ?_
    rw [shapeCast_self]

end Cert.KernelIdeal.Payload
-- ==== Proof.StatsRegion.lean ====
/-
  The statistics region's two output arrays, after all its grid points, as functions of the arrays it is entered with.

  Point `t` reads rows `2048·t … 2048·t + 2047` of the token features and of the weight column, and the whole of the
  first weight matrix and bias row. With `h r d = (∑ k, x r k · W1 k d) + b1 d` the hidden layer of row `r`, the point
  adds to column `d` of the first accumulator  ∑ over its rows of  h r d · weight r , and to the second
  ∑ of  (h r d · weight r) · h r d . The accumulators start from the zero block at point 0, so after point `n` they hold
  the sums of the partial sums of points `0 … n`; the write-back after the last point puts the totals in the arrays.
-/
import proofs.«131541_j88476326297844_1_alg».proof.Proof.StatsCases
import proofs.«131541_j88476326297844_1_alg».proof.Proof.Payload
import Idealize.ShloMosaic.Lib.Pipeline.Value
import Idealize.ShloMosaic.Lib.ValueIdx

set_option maxRecDepth 16384

noncomputable section

namespace Cert.KernelIdeal.StatsRegion

open Cert.KernelIdeal Cert.KernelIdeal.Gen
open Idealize.ShloMosaic Idealize.ShloMosaic.TcCoe Idealize.SL.Sem Idealize.ShloMosaic.ValueIdx
open Idealize.ShloMosaic.Pipeline (Dat)

/-- The block indices of every window at every point: the two row-tiled inputs at block `(t, 0)`, everything else at
    block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `2048·n + p` of the long arrays (reduced modulo their length, so that it is an index for every `n`). -/
def rowN (n : ℕ) (p : Fin 2048) : Fin 262144 := ⟨(n * 2048 + p.val) % 262144, Nat.mod_lt _ (by decide)⟩

theorem rowN_val (n : ℕ) (hn : n < 128) (p : Fin 2048) : (rowN n p).val = n * 2048 + p.val := by
  have := p.isLt
  show (n * 2048 + p.val) % 262144 = _
  exact Nat.mod_eq_of_lt (by omega)

/-- The hidden layer of row `r`, feature `d`. -/
def hidRow (A0 : S262144x15.Idx → EReal) (A2 : S15x128.Idx → EReal) (A3 : S1x128.Idx → EReal) (r : Fin 262144) (d : Fin 128) : EReal :=
  (∑ k : Fin 15, A0 (ix2 r k) * A2 (ix2 k d)) + A3 (ix2 (0 : Fin 1) d)

/-- Point `n`'s contribution to the first accumulator. -/
def part1 (A0 : S262144x15.Idx → EReal) (A1 : S262144x1.Idx → EReal) (A2 : S15x128.Idx → EReal) (A3 : S1x128.Idx → EReal) (n : ℕ) (d : Fin 128) : EReal :=
  ∑ p : Fin 2048, hidRow A0 A2 A3 (rowN n p) d * A1 (ix2 (rowN n p) (0 : Fin 1))

/-- Point `n`'s contribution to the second accumulator. -/
def part2 (A0 : S262144x15.Idx → EReal) (A1 : S262144x1.Idx → EReal) (A2 : S15x128.Idx → EReal) (A3 : S1x128.Idx → EReal) (n : ℕ) (d : Fin 128) : EReal :=
  ∑ p : Fin 2048, (hidRow A0 A2 A3 (rowN n p) d * A1 (ix2 (rowN n p) (0 : Fin 1))) * hidRow A0 A2 A3 (rowN n p) d

section
variable (V : (c : Dev nD) → (b : Ref sig .tc) → Buf (Elt Ideal) ((c : Thread nD τ).loc b))

/-! ### Each input window's block at a point, read at an entry -/

theorem blk0 (c : Dev nD) (t : Fin cfg0.N) (p : Fin 2048) (k : Fin 15) :
    iblk0 V c 0 t (ix2 p k) = V c main_v0 (ix2 (rowN t.val p) k) := by
  obtain ⟨e0, e1, -⟩ := block_indices t
  have hN : t.val < 128 := Nat.lt_of_lt_of_eq t.isLt N_0
  have hr := rowN_val t.val hN p
  show V c main_v0 (((cfg0.win 0).blk t).view.emb (ix2 p k)) = V c main_v0 (ix2 (rowN t.val p) k)
  refine congrArg _ (funext fun a => Fin.ext ?_)
  match a with
  | ⟨0, _⟩ => show win0_0.index t (0 : Fin 2) * 2048 + 1 * p.val = (rowN t.val p).val; omega
  | ⟨1, _⟩ => show win0_0.index t (1 : Fin 2) * 15 + 1 * k.val = k.val; omega

theorem blk1 (c : Dev nD) (t : Fin cfg0.N) (p : Fin 2048) :
    iblk0 V c 1 t (ix2 p (0 : Fin 1)) = V c main_v2 (ix2 (rowN t.val p) (0 : Fin 1)) := by
  obtain ⟨-, -, e0, e1, -⟩ := block_indices t
  have hN : t.val < 128 := Nat.lt_of_lt_of_eq t.isLt N_0
  have hr := rowN_val t.val hN p
  show V c main_v2 (((cfg0.win 1).blk t).view.emb (ix2 p (0 : Fin 1))) = V c main_v2 (ix2 (rowN t.val p) (0 : Fin 1))
  refine congrArg _ (funext fun a => Fin.ext ?_)
  match a with
  | ⟨0, _⟩ => show win0_1.index t (0 : Fin 2) * 2048 + 1 * p.val = (rowN t.val p).val; omega
  | ⟨1, _⟩ => show win0_1.index t (1 : Fin 2) * 1 + 1 * 0 = 0; omega

theorem blk2 (c : Dev nD) (t : Fin cfg0.N) (k : Fin 15) (d : Fin 128) :
    iblk0 V c 2 t (ix2 k d) = V c main_arg2 (ix2 k d) := by
  obtain ⟨-, -, -, -, e0, e1, -⟩ := block_indices t
  show V c main_arg2 (((cfg0.win 2).blk t).view.emb (ix2 k d)) = V c main_arg2 (ix2 k d)
  refine congrArg _ (funext fun a => Fin.ext ?_)
  match a with
  | ⟨0, _⟩ => show win0_2.index t (0 : Fin 2) * 15 + 1 * k.val = k.val; omega
  | ⟨1, _⟩ => show win0_2.index t (1 : Fin 2) * 128 + 1 * d.val = d.val; omega

theorem blk3 (c : Dev nD) (t : Fin cfg0.N) (d : Fin 128) :
    iblk0 V c 3 t (ix2 (0 : Fin 1) d) = V c main_v3 (ix2 (0 : Fin 1) d) := by
  obtain ⟨-, -, -, -, -, -, e0, e1, -⟩ := block_indices t
  show V c main_v3 (((cfg0.win 3).blk t).view.emb (ix2 (0 : Fin 1) d)) = V c main_v3 (ix2 (0 : Fin 1) d)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * d.val = d.val; omega

/-! ### One point -/

/-- The first accumulation's value at a point, from the accumulator's previous contents `acc`. -/
theorem add_first (c : Dev nD) (t : Fin cfg0.N) (acc : Vec Ideal S1x128 .f32) (d : Fin 128) :
    k0_pay5 (F := Ideal) (iblk0 V c 0 t) (iblk0 V c 2 t) (iblk0 V c 3 t) (iblk0 V c 1 t) acc (ix2 (0 : Fin 1) d)
      = acc (ix2 (0 : Fin 1) d) + part1 (V c main_v0) (V c main_v2) (V c main_arg2) (V c main_v3) t.val d := by
  refine (Cert.KernelIdeal.Payload.pay5_apply _ _ _ _ _ d).trans ?_
  unfold part1 hidRow
  simp only [blk0 V c t, blk1 V c t, blk2 V c t, blk3 V c t]

/-- The second accumulation's value at a point. -/
theorem add_second (c : Dev nD) (t : Fin cfg0.N) (acc : Vec Ideal S1x128 .f32) (d : Fin 128) :
    k0_pay6 (F := Ideal) (iblk0 V c 0 t) (iblk0 V c 2 t) (iblk0 V c 3 t) (iblk0 V c 1 t) acc (ix2 (0 : Fin 1) d)
      = acc (ix2 (0 : Fin 1) d) + part2 (V c main_v0) (V c main_v2) (V c main_arg2) (V c main_v3) t.val d := by
  refine (Cert.KernelIdeal.Payload.pay6_apply _ _ _ _ _ d).trans ?_
  unfold part2 hidRow
  simp only [blk0 V c t, blk1 V c t, blk2 V c t, blk3 V c t]

/-! ### The running sums -/

/-- After point `n` the accumulators hold the sums of the partial sums of points `0 … n`: by induction on the point. -/
theorem running (c : Dev nD) : ∀ (n : ℕ) (h : n < cfg0.N) (d : Fin 128),
    (outsAt0 V c n h).1 (ix2 (0 : Fin 1) d)
        = ∑ t ∈ Finset.range (n + 1), part1 (V c main_v0) (V c main_v2) (V c main_arg2) (V c main_v3) t d
    ∧ (outsAt0 V c n h).2 (ix2 (0 : Fin 1) d)
        = ∑ t ∈ Finset.range (n + 1), part2 (V c main_v0) (V c main_v2) (V c main_arg2) (V c main_v3) t d
  | 0, h, d => by
    rw [outsAt0_A V c ⟨0, h⟩ rfl]
    dsimp only
    rw [StatsCases.first_first, StatsCases.first_second, Finset.sum_range_one, Finset.sum_range_one]
    refine ⟨(add_first V c ⟨0, h⟩ _ d).trans ?_, (add_second V c ⟨0, h⟩ _ d).trans ?_⟩
    · rw [Cert.KernelIdeal.Payload.pay1_apply, zero_add]
    · rw [Cert.KernelIdeal.Payload.pay2_apply, zero_add]
  | n + 1, h, d => by
    have hN : cfg0.N = 128 := N_0
    have hB : ¬(⟨n + 1, h⟩ : Fin cfg0.N).val % 128 = 0 := by dsimp only; omega
    obtain ⟨ih1, ih2⟩ := running c n (Nat.lt_of_succ_lt h) d
    rw [outsAt0_B V c ⟨n + 1, h⟩ hB]
    dsimp only
    rw [StatsCases.later_first, StatsCases.later_second, Finset.sum_range_succ _ (n + 1), Finset.sum_range_succ _ (n + 1)]
    refine ⟨(add_first V c ⟨n + 1, h⟩ _ d).trans ?_, (add_second V c ⟨n + 1, h⟩ _ d).trans ?_⟩
    · exact congrArg (· + _) ih1
    · exact congrArg (· + _) ih2

/-! ### The arrays after the last point -/

/-- The first output array: column `d` holds the total over all points. -/
def total1 (c : Dev nD) : S1x128.Idx → EReal :=
  fun i => ∑ t ∈ Finset.range 128, part1 (V c main_v0) (V c main_v2) (V c main_arg2) (V c main_v3) t ⟨(i 1).val, (i 1).isLt⟩

/-- The second output array: column `d` holds the total over all points. -/
def total2 (c : Dev nD) : S1x128.Idx → EReal :=
  fun i => ∑ t ∈ Finset.range 128, part2 (V c main_v0) (V c main_v2) (V c main_arg2) (V c main_v3) t ⟨(i 1).val, (i 1).isLt⟩

theorem emb4 (t : Fin cfg0.N) (d : Fin 128) : ((cfg0.win 4).blk t).view.emb (ix2 (0 : Fin 1) d) = ix2 (0 : Fin 1) d := by
  obtain ⟨-, -, -, -, -, -, -, -, e0, e1, -⟩ := block_indices t
  refine funext fun a => Fin.ext ?_
  match a with
  | ⟨0, _⟩ => show win0_4.index t (0 : Fin 2) * 1 + 1 * 0 = 0; omega
  | ⟨1, _⟩ => show win0_4.index t (1 : Fin 2) * 128 + 1 * d.val = d.val; omega

theorem emb5 (t : Fin cfg0.N) (d : Fin 128) : ((cfg0.win 5).blk t).view.emb (ix2 (0 : Fin 1) d) = ix2 (0 : Fin 1) d := by
  obtain ⟨-, -, -, -, -, -, -, -, -, -, e0, e1⟩ := block_indices t
  refine funext fun a => Fin.ext ?_
  match a with
  | ⟨0, _⟩ => show win0_5.index t (0 : Fin 2) * 1 + 1 * 0 = 0; omega
  | ⟨1, _⟩ => show win0_5.index t (1 : Fin 2) * 128 + 1 * d.val = d.val; omega

/-- The one write-back of the first output, after point 127, writes the totals. -/
theorem flushed4 (c : Dev nD) (t : Fin cfg0.N) (hf : (cfg0.win 4).flush t = true) :
    (dat0 V c).flushed 4 t = ((cfg0.win 4).blk t).view.read (Elt Ideal) (total1 V c) := by
  have hN : cfg0.N = 128 := N_0
  have h127 : t.val = 127 := by have := (flush0_4 t).mp hf; have := t.isLt; omega
  show (cfg0.win 4).cut (grid0.coords t) ((dat0 V c).after 4 t) = _
  rw [after0_4]
  funext j
  obtain ⟨z, d, rfl⟩ : ∃ (z : Fin 1) (d : Fin 128), j = ix2 z d := ⟨j 0, j 1, eq_ix2 j⟩
  obtain rfl : z = 0 := Subsingleton.elim _ _
  show (outsAt0 V c t.val t.isLt).1 (ix2 (0 : Fin 1) d) = total1 V c (((cfg0.win 4).blk t).view.emb (ix2 (0 : Fin 1) d))
  rw [(running V c t.val t.isLt d).1, emb4 t d, h127]
  rfl

/-- The one write-back of the second output, after point 127, writes the totals. -/
theorem flushed5 (c : Dev nD) (t : Fin cfg0.N) (hf : (cfg0.win 5).flush t = true) :
    (dat0 V c).flushed 5 t = ((cfg0.win 5).blk t).view.read (Elt Ideal) (total2 V c) := by
  have hN : cfg0.N = 128 := N_0
  have h127 : t.val = 127 := by have := (flush0_5 t).mp hf; have := t.isLt; omega
  show (cfg0.win 5).cut (grid0.coords t) ((dat0 V c).after 5 t) = _
  rw [after0_5]
  funext j
  obtain ⟨z, d, rfl⟩ : ∃ (z : Fin 1) (d : Fin 128), j = ix2 z d := ⟨j 0, j 1, eq_ix2 j⟩
  obtain rfl : z = 0 := Subsingleton.elim _ _
  show (outsAt0 V c t.val t.isLt).2 (ix2 (0 : Fin 1) d) = total2 V c (((cfg0.win 5).blk t).view.emb (ix2 (0 : Fin 1) d))
  rw [(running V c t.val t.isLt d).2, emb5 t d, h127]
  rfl

/-- The last point, as a point of the grid. -/
abbrev lastPoint : Fin cfg0.N := ⟨127, by rw [show cfg0.N = 128 from N_0]; decide⟩

theorem cover4 (i : S1x128.Idx) : ∃ t : Fin cfg0.N, (cfg0.win 4).flush t = true ∧ i ∈ ((cfg0.win 4).blk t).view.set := by
  refine ⟨lastPoint, (flush0_4 lastPoint).mpr rfl, ?_⟩
  show i ∈ ((View.whole main_v4_0).slice (win0_4.rect lastPoint)).set
  rw [View.set_slice_whole, Rect.mem_set_unit]
  obtain ⟨-, -, -, -, -, -, -, -, e0, e1, -⟩ := block_indices lastPoint
  have h0 : (i 0 : Nat) < 1 := (i 0).isLt
  have h1 : (i 1 : Nat) < 128 := (i 1).isLt
  intro a
  match a with
  | ⟨0, _⟩ => show win0_4.index lastPoint (0 : Fin 2) * 1 ≤ (i 0 : Nat) ∧ (i 0 : Nat) < win0_4.index lastPoint (0 : Fin 2) * 1 + 1; omega
  | ⟨1, _⟩ => show win0_4.index lastPoint (1 : Fin 2) * 128 ≤ (i 1 : Nat) ∧ (i 1 : Nat) < win0_4.index lastPoint (1 : Fin 2) * 128 + 128; omega

theorem cover5 (i : S1x128.Idx) : ∃ t : Fin cfg0.N, (cfg0.win 5).flush t = true ∧ i ∈ ((cfg0.win 5).blk t).view.set := by
  refine ⟨lastPoint, (flush0_5 lastPoint).mpr rfl, ?_⟩
  show i ∈ ((View.whole main_v4_1).slice (win0_5.rect lastPoint)).set
  rw [View.set_slice_whole, Rect.mem_set_unit]
  obtain ⟨-, -, -, -, -, -, -, -, -, -, e0, e1⟩ := block_indices lastPoint
  have h0 : (i 0 : Nat) < 1 := (i 0).isLt
  have h1 : (i 1 : Nat) < 128 := (i 1).isLt
  intro a
  match a with
  | ⟨0, _⟩ => show win0_5.index lastPoint (0 : Fin 2) * 1 ≤ (i 0 : Nat) ∧ (i 0 : Nat) < win0_5.index lastPoint (0 : Fin 2) * 1 + 1; omega
  | ⟨1, _⟩ => show win0_5.index lastPoint (1 : Fin 2) * 128 ≤ (i 1 : Nat) ∧ (i 1 : Nat) < win0_5.index lastPoint (1 : Fin 2) * 128 + 128; omega

/-- The first output array after the region. -/
theorem final1 (c : Dev nD) : (dat0 V c).arrAt 4 cfg0.N = total1 V c :=
  (dat0 V c).arrAt_eq_of_cover 4 (total1 V c) (flushed4 V c) cover4

/-- The second output array after the region. -/
theorem final2 (c : Dev nD) : (dat0 V c).arrAt 5 cfg0.N = total2 V c :=
  (dat0 V c).arrAt_eq_of_cover 5 (total2 V c) (flushed5 V c) cover5

end

end Cert.KernelIdeal.StatsRegion

end
-- ==== Proof.ApplyRegion.lean ====
/-
  The apply region's output array, after all its grid points, as one function of the arrays the region is entered with.

  The region has 128 grid points. Point `t` reads rows `2048·t … 2048·t + 2047` of the token features (15 columns) and of
  the 0/1 weight column, and the whole of the six small operands (first weight matrix, first bias row, scale row, shift
  row, second weight matrix, second bias row); it writes rows `2048·t …` of the output (128 columns). Row `r`, column `q` of
  what it writes is
      ((∑ d, max ((((∑ c, x r c · W1 c d) + b1 d) · scale d) + shift d) 0 · W2 d q) + b2 q) · weight r .
  The blocks of the 128 points tile the output array, so the array ends holding that function at every index.
-/
import proofs.«131541_j88476326297844_1_alg».proof.Proof.Gen.KernelIdeal.Frame
import proofs.«131541_j88476326297844_1_alg».proof.Proof.Payload
import Idealize.ShloMosaic.Lib.Pipeline.Value
import Idealize.ShloMosaic.Lib.ValueIdx

set_option maxRecDepth 16384

noncomputable section

namespace Cert.KernelIdeal.ApplyRegion

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's one store covers its block, and its loads read whole blocks: what the body leaves in the output block is
    the body's arithmetic of the eight input blocks. -/
theorem out_eq_payload {F : FTy → Type} [FloatOps F] (x0 : Vec F S2048x15 .f32) (x1 : Vec F S2048x1 .f32) (x2 : Vec F S15x128 .f32)
    (x3 x4 x5 : Vec F S1x128 .f32) (x6 : Vec F S128x128 .f32) (x7 : Vec F S1x128 .f32) :
    out1_8 x0 x1 x2 x3 x4 x5 x6 x7 = k1_pay1 x0 x2 x3 x4 x5 x6 x7 x1 := by
  unfold out1_8
  rw [View.canon_unit_zero hz]
  simp only [View.ld_unit_zero (S := S2048x15) hz, View.ld_unit_zero (S := S2048x1) hz, View.ld_unit_zero (S := S15x128) hz,
    View.ld_unit_zero (S := S1x128) hz, View.ld_unit_zero (S := S128x128) hz]

/-- The block indices of every window at every point: the two row-tiled inputs and the output are at block `(t, 0)`, the
    six small operands at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row `2048·t + p` of the long arrays, as an index. -/
abbrev row (t : Fin cfg1.N) (p : Fin 2048) : Fin 262144 :=
  ⟨t.val * 2048 + p.val, by have h : t.val < 128 := Nat.lt_of_lt_of_eq t.isLt N_1; have := p.isLt; omega⟩

section
variable (V : (c : Dev nD) → (b : Ref sig .tc) → Buf (Elt Ideal) ((c : Thread nD τ).loc b))

/-! ### Each input window's block at a point, read at an entry -/

theorem blk0 (c : Dev nD) (t : Fin cfg1.N) (p : Fin 2048) (k : Fin 15) :
    iblk1 V c 0 t (ix2 p k) = V c main_v0 (ix2 (row t p) k) := by
  obtain ⟨e0, e1, -⟩ := block_indices t
  show V c main_v0 (((cfg1.win 0).blk t).view.emb (ix2 p k)) = V c main_v0 (ix2 (row t p) k)
  refine congrArg _ (funext fun a => Fin.ext ?_)
  match a with
  | ⟨0, _⟩ => show win1_0.index t (0 : Fin 2) * 2048 + 1 * p.val = t.val * 2048 + p.val; omega
  | ⟨1, _⟩ => show win1_0.index t (1 : Fin 2) * 15 + 1 * k.val = k.val; omega

theorem blk1 (c : Dev nD) (t : Fin cfg1.N) (p : Fin 2048) :
    iblk1 V c 1 t (ix2 p (0 : Fin 1)) = V c main_v2 (ix2 (row t p) (0 : Fin 1)) := by
  obtain ⟨-, -, e0, e1, -⟩ := block_indices t
  show V c main_v2 (((cfg1.win 1).blk t).view.emb (ix2 p (0 : Fin 1))) = V c main_v2 (ix2 (row t p) (0 : Fin 1))
  refine congrArg _ (funext fun a => Fin.ext ?_)
  match a with
  | ⟨0, _⟩ => show win1_1.index t (0 : Fin 2) * 2048 + 1 * p.val = t.val * 2048 + p.val; omega
  | ⟨1, _⟩ => show win1_1.index t (1 : Fin 2) * 1 + 1 * 0 = 0; omega

theorem blk2 (c : Dev nD) (t : Fin cfg1.N) (k : Fin 15) (d : Fin 128) :
    iblk1 V c 2 t (ix2 k d) = V c main_arg2 (ix2 k d) := by
  obtain ⟨-, -, -, -, e0, e1, -⟩ := block_indices t
  show V c main_arg2 (((cfg1.win 2).blk t).view.emb (ix2 k d)) = V c main_arg2 (ix2 k d)
  refine congrArg _ (funext fun a => Fin.ext ?_)
  match a with
  | ⟨0, _⟩ => show win1_2.index t (0 : Fin 2) * 15 + 1 * k.val = k.val; omega
  | ⟨1, _⟩ => show win1_2.index t (1 : Fin 2) * 128 + 1 * d.val = d.val; omega

theorem blk3 (c : Dev nD) (t : Fin cfg1.N) (d : Fin 128) :
    iblk1 V c 3 t (ix2 (0 : Fin 1) d) = V c main_v3 (ix2 (0 : Fin 1) d) := by
  obtain ⟨-, -, -, -, -, -, e0, e1, -⟩ := block_indices t
  show V c main_v3 (((cfg1.win 3).blk t).view.emb (ix2 (0 : Fin 1) d)) = V c main_v3 (ix2 (0 : Fin 1) d)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * d.val = d.val; omega

theorem blk4 (c : Dev nD) (t : Fin cfg1.N) (d : Fin 128) :
    iblk1 V c 4 t (ix2 (0 : Fin 1) d) = V c main_v21 (ix2 (0 : Fin 1) d) := by
  obtain ⟨-, -, -, -, -, -, -, -, e0, e1, -⟩ := block_indices t
  show V c main_v21 (((cfg1.win 4).blk t).view.emb (ix2 (0 : Fin 1) d)) = V c main_v21 (ix2 (0 : Fin 1) d)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * d.val = d.val; omega

theorem blk5 (c : Dev nD) (t : Fin cfg1.N) (d : Fin 128) :
    iblk1 V c 5 t (ix2 (0 : Fin 1) d) = V c main_v22 (ix2 (0 : Fin 1) d) := by
  obtain ⟨-, -, -, -, -, -, -, -, -, -, e0, e1, -⟩ := block_indices t
  show V c main_v22 (((cfg1.win 5).blk t).view.emb (ix2 (0 : Fin 1) d)) = V c main_v22 (ix2 (0 : Fin 1) d)
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * d.val = d.val; omega

theorem blk6 (c : Dev nD) (t : Fin cfg1.N) (d q : Fin 128) :
    iblk1 V c 6 t (ix2 d q) = V c main_arg6 (ix2 d q) := by
  obtain ⟨-, -, -, -, -, -, -, -, -, -, -, -, e0, e1, -⟩ := block_indices t
  show V c main_arg6 (((cfg1.win 6).blk t).view.emb (ix2 d q)) = V c main_arg6 (ix2 d q)
  refine congrArg _ (funext fun a => Fin.ext ?_)
  match a with
  | ⟨0, _⟩ => show win1_6.index t (0 : Fin 2) * 128 + 1 * d.val = d.val; omega
  | ⟨1, _⟩ => show win1_6.index t (1 : Fin 2) * 128 + 1 * q.val = q.val; omega

theorem blk7 (c : Dev nD) (t : Fin cfg1.N) (q : Fin 128) :
    iblk1 V c 7 t (ix2 (0 : Fin 1) q) = V c main_v23 (ix2 (0 : Fin 1) q) := by
  obtain ⟨-, -, -, -, -, -, -, -, -, -, -, -, -, -, e0, e1, -⟩ := block_indices t
  show V c main_v23 (((cfg1.win 7).blk t).view.emb (ix2 (0 : Fin 1) q)) = V c main_v23 (ix2 (0 : Fin 1) q)
  refine congrArg _ (funext fun a => Fin.ext ?_)
  match a with
  | ⟨0, _⟩ => show win1_7.index t (0 : Fin 2) * 1 + 1 * 0 = 0; omega
  | ⟨1, _⟩ => show win1_7.index t (1 : Fin 2) * 128 + 1 * q.val = q.val; omega

/-- Entry `(p, q)` of the output's block at point `t` sits at row `2048·t + p`, column `q` of the output array. -/
theorem emb8 (t : Fin cfg1.N) (p : Fin 2048) (q : Fin 128) :
    ((cfg1.win 8).blk t).view.emb (ix2 p q) = ix2 (row t p) q := by
  obtain ⟨-, -, -, -, -, -, -, -, -, -, -, -, -, -, -, -, e0, e1⟩ := block_indices t
  refine funext fun a => Fin.ext ?_
  match a with
  | ⟨0, _⟩ => show win1_8.index t (0 : Fin 2) * 2048 + 1 * p.val = t.val * 2048 + p.val; omega
  | ⟨1, _⟩ => show win1_8.index t (1 : Fin 2) * 128 + 1 * q.val = q.val; omega

end

/-! ### The output array as one function -/

/-- Row `r`, column `q` of the apply step, from the eight arrays. -/
def applyRow (A0 : S262144x15.Idx → EReal) (A1 : S262144x1.Idx → EReal) (A2 : S15x128.Idx → EReal) (A3 A4 A5 : S1x128.Idx → EReal)
    (A6 : S128x128.Idx → EReal) (A7 : S1x128.Idx → EReal) (r : Fin 262144) (q : Fin 128) : EReal :=
  ((∑ d : Fin 128, max ((((∑ k : Fin 15, A0 (ix2 r k) * A2 (ix2 k d)) + A3 (ix2 (0 : Fin 1) d)) * A4 (ix2 (0 : Fin 1) d)) + A5 (ix2 (0 : Fin 1) d)) 0
      * A6 (ix2 d q)) + A7 (ix2 (0 : Fin 1) q)) * A1 (ix2 r (0 : Fin 1))

/-- The same as an array over the output's index set. -/
def applyArr (A0 : S262144x15.Idx → EReal) (A1 : S262144x1.Idx → EReal) (A2 : S15x128.Idx → EReal) (A3 A4 A5 : S1x128.Idx → EReal)
    (A6 : S128x128.Idx → EReal) (A7 : S1x128.Idx → EReal) : S262144x128.Idx → EReal :=
  fun i => applyRow A0 A1 A2 A3 A4 A5 A6 A7 ⟨(i 0).val, (i 0).isLt⟩ ⟨(i 1).val, (i 1).isLt⟩

theorem applyArr_ix2 (A0 : S262144x15.Idx → EReal) (A1 : S262144x1.Idx → EReal) (A2 : S15x128.Idx → EReal) (A3 A4 A5 : S1x128.Idx → EReal)
    (A6 : S128x128.Idx → EReal) (A7 : S1x128.Idx → EReal) (r : Fin 262144) (q : Fin 128) :
    applyArr A0 A1 A2 A3 A4 A5 A6 A7 (ix2 r q) = applyRow A0 A1 A2 A3 A4 A5 A6 A7 r q := rfl

section
variable (V : (c : Dev nD) → (b : Ref sig .tc) → Buf (Elt Ideal) ((c : Thread nD τ).loc b))

/-- The output array the region leaves, from the arrays it is entered with. -/
abbrev result (c : Dev nD) : S262144x128.Idx → EReal :=
  applyArr (V c main_v0) (V c main_v2) (V c main_arg2) (V c main_v3) (V c main_v21) (V c main_v22) (V c main_arg6) (V c main_v23)

/-- What point `t` writes back is block `t` of that function. -/
theorem flushed_eq (c : Dev nD) (t : Fin cfg1.N) :
    (dat1 V c).flushed 8 t = ((cfg1.win 8).blk t).view.read (Elt Ideal) (result V c) := by
  show (cfg1.win 8).cut (grid1.coords t) ((dat1 V c).after 8 t) = _
  rw [after1_8, out_eq_payload]
  funext j
  obtain ⟨p, q, rfl⟩ : ∃ (p : Fin 2048) (q : Fin 128), j = ix2 p q := ⟨j 0, j 1, eq_ix2 j⟩
  refine (Cert.KernelIdeal.Payload.apply_pay_apply _ _ _ _ _ _ _ _ p q).trans ?_
  show _ = result V c (((cfg1.win 8).blk t).view.emb (ix2 p q))
  rw [emb8 t p q]
  show _ = applyRow (V c main_v0) (V c main_v2) (V c main_arg2) (V c main_v3) (V c main_v21) (V c main_v22) (V c main_arg6) (V c main_v23) (row t p) q
  unfold applyRow
  simp only [blk0 V c t, blk1 V c t, blk2 V c t, blk3 V c t, blk4 V c t, blk5 V c t, blk6 V c t, blk7 V c t]

/-- An index of the output array lies in point `t`'s block iff its row is in `[2048·t, 2048·t + 2048)` (and its column in range). -/
theorem mem_blk (t : Fin cfg1.N) (i : S262144x128.Idx) :
    i ∈ ((cfg1.win 8).blk t).view.set ↔ ∀ a : Fin 2, win1_8.index t a * S2048x128.size a ≤ (i a).val ∧ (i a).val < win1_8.index t a * S2048x128.size a + S2048x128.size a := by
  show i ∈ ((View.whole main_v24).slice (win1_8.rect t)).set ↔ _
  rw [View.set_slice_whole, Rect.mem_set_unit]
  exact Iff.rfl

/-- Every index of the output array is in the block of the point its row falls in. -/
theorem cover (i : S262144x128.Idx) : ∃ t : Fin cfg1.N, (cfg1.win 8).flush t = true ∧ i ∈ ((cfg1.win 8).blk t).view.set := by
  have hi0 : (i 0).val < 262144 := (i 0).isLt
  have hi1 : (i 1).val < 128 := (i 1).isLt
  have hN : cfg1.N = 128 := N_1
  refine ⟨⟨(i 0).val / 2048, by rw [hN]; omega⟩, flush1_8 _, ?_⟩
  rw [mem_blk]
  obtain ⟨-, -, -, -, -, -, -, -, -, -, -, -, -, -, -, -, e0, e1⟩ := block_indices ⟨(i 0).val / 2048, by rw [hN]; omega⟩
  intro a
  match a with
  | ⟨0, _⟩ =>
    show win1_8.index _ (0 : Fin 2) * 2048 ≤ (i 0).val ∧ (i 0).val < win1_8.index _ (0 : Fin 2) * 2048 + 2048
    rw [e0]; dsimp only; omega
  | ⟨1, _⟩ =>
    show win1_8.index _ (1 : Fin 2) * 128 ≤ (i 1).val ∧ (i 1).val < win1_8.index _ (1 : Fin 2) * 128 + 128
    rw [e1]; omega

/-- The output array after the region's last point. -/
theorem final (c : Dev nD) : (dat1 V c).arrAt 8 cfg1.N = result V c :=
  (dat1 V c).arrAt_eq_of_cover 8 (result V c) (fun t _ => flushed_eq V c t) (cover)

end

end Cert.KernelIdeal.ApplyRegion

end
-- ==== Proof.Tokens.lean ====
/-
  Tokens, two ways.

  The 262144 tokens are indexed by the reference as triples `(a, b, n)` in `Fin 8 × Fin 128 × Fin 256` and by the kernel as
  pairs `(t, p)` in `Fin 128 × Fin 2048` (grid point, row inside the point's block). Both stand for the row
  `r = (a·128 + b)·256 + n = 2048·t + p` of the flattened arrays. This file has the bijection between the two, the row
  of a kernel token, and the regroupings of sums over rows as sums over kernel tokens.
-/
import Idealize.ShloMosaic.Lib.ValueIdx

noncomputable section

namespace Cert.Tokens

open Idealize.ShloMosaic Idealize.ShloMosaic.ValueIdx

/-- The kernel's tokens: grid point and row inside the point's block. -/
abbrev KTok := Fin 128 × Fin 2048
/-- The reference's tokens: the three leading coordinates of the input. -/
abbrev RTok := Fin 8 × Fin 128 × Fin 256

/-- The row of a kernel token. -/
def rowOf (j : KTok) : Fin 262144 := ⟨j.1.val * 2048 + j.2.val, by have := j.1.isLt; have := j.2.isLt; omega⟩

/-- The row of a reference token. -/
def flat (j : RTok) : Fin 262144 :=
  ⟨(j.1.val * 128 + j.2.1.val) * 256 + j.2.2.val, by have := j.1.isLt; have := j.2.1.isLt; have := j.2.2.isLt; omega⟩

/-- Kernel tokens and reference tokens name the same rows. -/
def toR : KTok ≃ RTok where
  toFun j := (⟨(j.1.val * 2048 + j.2.val) / 32768, by have := j.1.isLt; have := j.2.isLt; omega⟩,
    ⟨(j.1.val * 2048 + j.2.val) / 256 % 128, by omega⟩, ⟨(j.1.val * 2048 + j.2.val) % 256, by omega⟩)
  invFun j := (⟨((j.1.val * 128 + j.2.1.val) * 256 + j.2.2.val) / 2048, by have := j.1.isLt; have := j.2.1.isLt; have := j.2.2.isLt; omega⟩,
    ⟨((j.1.val * 128 + j.2.1.val) * 256 + j.2.2.val) % 2048, by omega⟩)
  left_inv j := by
    obtain ⟨⟨t, ht⟩, ⟨p, hp⟩⟩ := j
    refine Prod.ext (Fin.ext ?_) (Fin.ext ?_) <;> dsimp only <;> omega
  right_inv j := by
    obtain ⟨⟨a, ha⟩, ⟨b, hb⟩, ⟨n, hn⟩⟩ := j
    refine Prod.ext (Fin.ext ?_) (Prod.ext (Fin.ext ?_) (Fin.ext ?_)) <;> dsimp only <;> omega

theorem flat_toR (j : KTok) : (flat (toR j)).val = (rowOf j).val := by
  obtain ⟨⟨t, ht⟩, ⟨p, hp⟩⟩ := j
  show ((t * 2048 + p) / 32768 * 128 + (t * 2048 + p) / 256 % 128) * 256 + (t * 2048 + p) % 256 = t * 2048 + p
  omega

theorem rowOf_symm (j : RTok) : (rowOf (toR.symm j)).val = (flat j).val := by
  rw [← flat_toR, Equiv.apply_symm_apply]

/-- A sum over the grid points of sums over the rows of a block is one sum over kernel tokens. -/
theorem sum_points_rows {M : Type*} [AddCommMonoid M] (f : ℕ → Fin 2048 → M) :
    ∑ t ∈ Finset.range 128, ∑ p : Fin 2048, f t p = ∑ j : KTok, f j.1.val j.2 := by
  rw [Finset.sum_range (fun t => ∑ p : Fin 2048, f t p), Fintype.sum_prod_type]

/-- Rows and kernel tokens correspond one to one. -/
def rowEquiv : KTok ≃ Fin 262144 where
  toFun := rowOf
  invFun r := (⟨r.val / 2048, by have := r.isLt; omega⟩, ⟨r.val % 2048, by omega⟩)
  left_inv j := by
    obtain ⟨⟨t, ht⟩, ⟨p, hp⟩⟩ := j
    refine Prod.ext (Fin.ext ?_) (Fin.ext ?_) <;> (show _ = _; dsimp only [rowOf]; omega)
  right_inv r := by
    obtain ⟨r, hr⟩ := r
    refine Fin.ext ?_
    show r / 2048 * 2048 + r % 2048 = r
    omega

/-- A sum over the index set of a one-column array of 262144 rows is a sum over kernel tokens. -/
theorem sum_column {M : Type*} [AddCommMonoid M] (x : (⟨2, ![262144, 1]⟩ : Shape).Idx → M) :
    ∑ i, x i = ∑ j : KTok, x (ix2 (rowOf j) (0 : Fin 1)) := by
  rw [sum_idx2 x]
  rw [← Equiv.sum_comp rowEquiv (fun r : Fin 262144 => ∑ z : Fin 1, x (ix2 r z))]
  refine Finset.sum_congr rfl fun j _ => ?_
  rw [Fin.sum_univ_one]
  rfl

end Cert.Tokens

end
-- ==== Proof.Reshapes.lean ====
/-
  The host's reshapes, read at an index.

  Before the two regions the program flattens its arguments to row-major two-dimensional arrays: the features
  [8, 128, 256, 15] to [262144, 15], the mask [8, 128, 256] to the column [262144, 1], each per-feature vector [128]
  to the row [1, 128]; afterwards it turns the statistics rows back into vectors and folds the result [262144, 128]
  back to [8, 128, 256, 128]. A reshape keeps every element at its row-major position, and the position of token
  (a, b, n) among the 262144 rows is (a * 128 + b) * 256 + n. Each lemma reads one of these casts at an entry.
-/
import proofs.«131541_j88476326297844_1_alg».proof.KernelIdeal
import proofs.«131541_j88476326297844_1_alg».proof.Proof.Tokens
import Idealize.ShloMosaic.Lib.ValueIdx
import Idealize.ShloMosaic.Lib.Pipeline.Value
import Idealize.ShloMosaic.Lib.ValueLayout

namespace Cert.KernelIdeal.Reshapes

open Idealize.ShloMosaic Idealize.ShloMosaic.ValueIdx Cert.KernelIdeal Cert.Tokens

variable {α : Type}

/-! ## Whatever the proof of the shape fact -/

/-- The flattened features at row `flat j`, column k, are the features at (a, b, n, k). -/
theorem features_cast (x : S8x128x256x15.Idx → α) (h : S8x128x256x15.ShapeCasts S262144x15) (j : RTok) (k : Fin 15) :
    shapeCast S262144x15 x h (ix2 (flat j) k) = x (ix4 j.1 j.2.1 j.2.2 k) :=
  shapeCast_apply x h _ _ (by
    rw [Shape.rowMajor_val_four, Shape.rowMajor_val_two]
    show ((j.1.val * 128 + j.2.1.val) * 256 + j.2.2.val) * 15 + k.val
      = ((j.1.val * 128 + j.2.1.val) * 256 + j.2.2.val) * 15 + k.val
    rfl)

/-- The mask column at row `flat j` is the mask at (a, b, n). -/
theorem mask_cast (x : S8x128x256.Idx → α) (h : S8x128x256.ShapeCasts S262144x1) (j : RTok) :
    shapeCast S262144x1 x h (ix2 (flat j) (0 : Fin 1)) = x (ix3 j.1 j.2.1 j.2.2) :=
  shapeCast_apply x h _ _ (by
    rw [Shape.rowMajor_val_three, Shape.rowMajor_val_two]
    show (j.1.val * 128 + j.2.1.val) * 256 + j.2.2.val = ((j.1.val * 128 + j.2.1.val) * 256 + j.2.2.val) * 1 + 0
    rw [Nat.mul_one, Nat.add_zero])

/-- A per-feature vector as a row: entry (0, d) is the vector's entry d. -/
theorem row_cast (x : S128.Idx → α) (h : S128.ShapeCasts S1x128) (d : Fin 128) :
    shapeCast S1x128 x h (ix2 (0 : Fin 1) d) = x (ix1 d) :=
  shapeCast_a_1a_apply x h (0 : Fin 1) d

/-- A row as a per-feature vector: entry d is the row's entry (0, d). -/
theorem unrow_cast (x : S1x128.Idx → α) (h : S1x128.ShapeCasts S128) (d : Fin 128) :
    shapeCast S128 x h (ix1 d) = x (ix2 (0 : Fin 1) d) :=
  shapeCast_1a_a_apply x h d

/-- The folded result at (a, b, n, e) is the flat result at row `flat j`, column e. -/
theorem result_cast (y : S262144x128.Idx → α) (h : S262144x128.ShapeCasts S8x128x256x128) (j : RTok) (e : Fin 128) :
    shapeCast S8x128x256x128 y h (ix4 j.1 j.2.1 j.2.2 e) = y (ix2 (flat j) e) :=
  shapeCast_apply y h _ _ (by
    rw [Shape.rowMajor_val_two, Shape.rowMajor_val_four]
    show ((j.1.val * 128 + j.2.1.val) * 256 + j.2.2.val) * 128 + e.val
      = ((j.1.val * 128 + j.2.1.val) * 256 + j.2.2.val) * 128 + e.val
    rfl)

/-! ## At the program's own shape facts -/

variable [Facts₀]
open Facts₀

theorem features_apply (x : S8x128x256x15.Idx → α) (j : RTok) (k : Fin 15) :
    shapeCast S262144x15 x shapeCasts_S8x128x256x15_S262144x15 (ix2 (flat j) k) = x (ix4 j.1 j.2.1 j.2.2 k) :=
  features_cast x _ j k

theorem mask_apply (x : S8x128x256.Idx → α) (j : RTok) :
    shapeCast S262144x1 x shapeCasts_S8x128x256_S262144x1 (ix2 (flat j) (0 : Fin 1)) = x (ix3 j.1 j.2.1 j.2.2) :=
  mask_cast x _ j

theorem row_apply (x : S128.Idx → α) (d : Fin 128) :
    shapeCast S1x128 x shapeCasts_S128_S1x128 (ix2 (0 : Fin 1) d) = x (ix1 d) :=
  row_cast x _ d

theorem unrow_apply (x : S1x128.Idx → α) (d : Fin 128) :
    shapeCast S128 x shapeCasts_S1x128_S128 (ix1 d) = x (ix2 (0 : Fin 1) d) :=
  unrow_cast x _ d

theorem result_apply (y : S262144x128.Idx → α) (j : RTok) (e : Fin 128) :
    shapeCast S8x128x256x128 y shapeCasts_S262144x128_S8x128x256x128 (ix4 j.1 j.2.1 j.2.2 e) = y (ix2 (flat j) e) :=
  result_cast y _ j e

end Cert.KernelIdeal.Reshapes
-- ==== Proof.Spec.lean ====
/-
  The two arithmetic forms of a masked batch normalisation between two linear layers, on the extended reals,
  over an abstract finite type `ι` of tokens.

  A token `j` has 15 input features `X j c` and a 0/1 weight `mv j`. Feature `d` of its hidden layer is
  `hid d j = (∑ c, X j c * W1 c d) + b1 d`. The count of weighted tokens is floored at one. The hidden layer
  is normalised per feature with the weighted mean and the (biased) weighted variance, scaled by `g`, shifted
  by `b`, clamped below at zero, sent through a second linear layer and multiplied by the token's weight.

  The two forms differ in how the variance and the affine step are arranged:
    * form K takes the variance as  E[h²] − (E[h])²  and applies  h · s + (b − mean · s)  with  s = g · rsqrt(var + ε);
    * form R takes the variance as  E[(h − mean)²]   and applies  (h − mean) · rsqrt(var + ε) · g + b.
  Every product and sum is associated exactly as written here; nothing else is meant by the definitions.
-/
import Idealize.ShloMosaic.PureOps.Ideal

noncomputable section

namespace Cert.BatchNorm

open Idealize.ShloMosaic

/-- The variance floor ε: the binary32 word nearest to 1e-5. -/
abbrev EPS : EReal := Ideal.ofBits .f32 0x3727C5AC#32
/-- The floor of the count: the binary32 word of 1. -/
abbrev ONE : EReal := Ideal.ofBits .f32 0x3F800000#32

variable {ι : Type} [Fintype ι]

/-- Feature `d` of token `j`'s hidden layer. -/
def hid (X : ι → Fin 15 → EReal) (W1 : Fin 15 → Fin 128 → EReal) (b1 : Fin 128 → EReal) (d : Fin 128) (j : ι) : EReal :=
  (∑ c : Fin 15, X j c * W1 c d) + b1 d

/-- The number of weighted tokens, floored at one. -/
def count (mv : ι → EReal) : EReal := max (∑ j, mv j) ONE

/-- The weighted mean of one feature. -/
def meanOf (hv mv : ι → EReal) : EReal := Ideal.div (∑ j, hv j * mv j) (count mv)

/-- The weighted variance as the mean of squares minus the squared mean. -/
def varK (hv mv : ι → EReal) : EReal :=
  Ideal.div (∑ j, hv j * mv j * hv j) (count mv) - meanOf hv mv * meanOf hv mv

/-- The weighted variance as the mean of squared deviations. -/
def varR (hv mv : ι → EReal) : EReal :=
  Ideal.div (∑ j, (hv j - meanOf hv mv) * (hv j - meanOf hv mv) * mv j) (count mv)

/-- Form K of the normalised, clamped feature: scale and shift folded first. -/
def actK (hv mv : ι → EReal) (g b : EReal) (k : ι) : EReal :=
  max (hv k * (g * Ideal.rsqrt (varK hv mv + EPS)) + (b - meanOf hv mv * (g * Ideal.rsqrt (varK hv mv + EPS)))) 0

/-- Form R of the normalised, clamped feature: centre, normalise, scale, shift. -/
def actR (hv mv : ι → EReal) (g b : EReal) (k : ι) : EReal :=
  max ((hv k - meanOf hv mv) * Ideal.rsqrt (varR hv mv + EPS) * g + b) 0

/-- Form K of output feature `e` of token `k`. -/
def outK (X : ι → Fin 15 → EReal) (mv : ι → EReal) (W1 : Fin 15 → Fin 128 → EReal) (b1 g b : Fin 128 → EReal)
    (W2 : Fin 128 → Fin 128 → EReal) (b2 : Fin 128 → EReal) (k : ι) (e : Fin 128) : EReal :=
  ((∑ d : Fin 128, actK (hid X W1 b1 d) mv (g d) (b d) k * W2 d e) + b2 e) * mv k

/-- Form R of output feature `e` of token `k`. -/
def outR (X : ι → Fin 15 → EReal) (mv : ι → EReal) (W1 : Fin 15 → Fin 128 → EReal) (b1 g b : Fin 128 → EReal)
    (W2 : Fin 128 → Fin 128 → EReal) (b2 : Fin 128 → EReal) (k : ι) (e : Fin 128) : EReal :=
  ((∑ d : Fin 128, actR (hid X W1 b1 d) mv (g d) (b d) k * W2 d e) + b2 e) * mv k

end Cert.BatchNorm

end
-- ==== Proof.Glue.lean ====
/-
  The host operations around the two regions: what each array the apply region is entered with holds, in terms of the
  arguments and of the statistics region's two totals.

  Before the statistics region the host flattens the token features and the mask to 262144 rows, reads the mask as a
  number, and recasts the first bias as a row. After it, from the two [1,128] totals `T1` (sums of h·weight) and `T2`
  (sums of (h·weight)·h) and the weight column `M`, it computes per hidden feature `d`
      cnt = max (0 + ∑ M) 1,  mean d = T1 d / cnt,  scale d = γ d · rsqrt ((T2 d / cnt − mean d · mean d) + ε),
      shift d = β d − mean d · scale d,
  and recasts scale, shift and the second bias as rows. No host operation and neither region writes an argument or an
  array another stage still reads, so those arrive unchanged.
-/
import proofs.«131541_j88476326297844_1_alg».proof.Proof.StatsRegion
import proofs.«131541_j88476326297844_1_alg».proof.Proof.ApplyRegion
import proofs.«131541_j88476326297844_1_alg».proof.Proof.Reshapes
import proofs.«131541_j88476326297844_1_alg».proof.Proof.Spec
import Idealize.ShloMosaic.PureOps.Ideal.Laws
import Idealize.ShloMosaic.Lib.StableHlo.Run
import Idealize.ShloMosaic.Lib.Tactic

set_option maxRecDepth 16384

noncomputable section

namespace Cert.KernelIdeal.Glue

open Cert.KernelIdeal Cert.KernelIdeal.Gen
open Idealize.ShloMosaic Idealize.ShloMosaic.TcCoe Idealize.SL.Sem Idealize.ShloMosaic.ValueIdx Idealize.ShloMosaic.Tactic
open Idealize.ShloMosaic.StableHlo
open Idealize.ShloMosaic.Pipeline (Dat)

/-! ### The host chain between the regions, as functions of its operands -/

abbrev Scal := FVec Ideal S_ .f32
abbrev Vec128 := FVec Ideal S128 .f32
abbrev Row128 := FVec Ideal S1x128 .f32
abbrev Column := FVec Ideal S262144x1 .f32

/-- The count of weighted tokens, floored at one. -/
def cnt (M : Column) : Scal :=
  maximumf (F := Ideal) (Host.reduceAdd (F := Ideal) M (constant (F := Ideal) S_ .f32 0x00000000#32) reducesTo_S262144x1_S_d0_1 h_S_) (constant (F := Ideal) S_ .f32 0x3F800000#32)

/-- A [1,128] total divided by the count. -/
def perCount (T : Row128) (M : Column) : Vec128 :=
  Host.divf (F := Ideal) (shapeCast S128 T shapeCasts_S1x128_S128) (broadcastInDim S128 ![] bcast_S_S128 (cnt M))

/-- The scale vector. -/
def scaleV (G : Vec128) (T1 T2 : Row128) (M : Column) : Vec128 :=
  mulf (F := Ideal) G (Host.rsqrt (F := Ideal) (addf (F := Ideal) (subf (F := Ideal) (perCount T2 M) (mulf (F := Ideal) (perCount T1 M) (perCount T1 M)))
    (broadcastInDim S128 ![] bcast_S_S128 (constant (F := Ideal) S_ .f32 0x3727C5AC#32))))

/-- The shift vector. -/
def shiftV (B G : Vec128) (T1 T2 : Row128) (M : Column) : Vec128 :=
  subf (F := Ideal) B (mulf (F := Ideal) (perCount T1 M) (scaleV G T1 T2 M))

/-! Each vector operation of the chain at an index (the operations are pointwise). -/

theorem divf_at {s : Shape} (x y : FVec Ideal s .f32) (i : s.Idx) : Host.divf (F := Ideal) x y i = Ideal.div (x i) (y i) := rfl
theorem mulf_at {s : Shape} (x y : FVec Ideal s .f32) (i : s.Idx) : mulf (F := Ideal) x y i = x i * y i := rfl
theorem addf_at {s : Shape} (x y : FVec Ideal s .f32) (i : s.Idx) : addf (F := Ideal) x y i = x i + y i := rfl
theorem subf_at {s : Shape} (x y : FVec Ideal s .f32) (i : s.Idx) : subf (F := Ideal) x y i = x i - y i := rfl
theorem rsqrt_at {s : Shape} (x : FVec Ideal s .f32) (i : s.Idx) : Host.rsqrt (F := Ideal) x i = Ideal.rsqrt (x i) := rfl
theorem maximumf_at {s : Shape} (x y : FVec Ideal s .f32) (i : s.Idx) : maximumf (F := Ideal) x y i = max (x i) (y i) := rfl
theorem constant_at (w : BitVec 32) (i : S_.Idx) : constant (F := Ideal) S_ .f32 w i = Ideal.ofBits .f32 w := rfl
theorem scalar_bcast_at (x : Scal) (i : S128.Idx) : broadcastInDim S128 ![] bcast_S_S128 x i = x ix0 :=
  congrArg x (funext fun a => a.elim0)
theorem reduce_at (M : Column) (i : S_.Idx) :
    Host.reduceAdd (F := Ideal) M (constant (F := Ideal) S_ .f32 0x00000000#32) reducesTo_S262144x1_S_d0_1 h_S_ i
      = Ideal.ofBits .f32 0x00000000#32 + ∑ j, M j :=
  Ideal.hostReduceAdd_total reducesTo_S262144x1_S_d0_1 (fun b => b.elim0) M _ i

theorem cnt_apply (M : Column) (i : S_.Idx) : cnt M i = max (∑ j, M j) Cert.BatchNorm.ONE := by
  unfold cnt
  rw [maximumf_at, reduce_at, constant_at, Ideal.ofBits_zero_f32, zero_add]

theorem perCount_apply (T : Row128) (M : Column) (d : Fin 128) :
    perCount T M (ix1 d) = Ideal.div (T (ix2 (0 : Fin 1) d)) (max (∑ j, M j) Cert.BatchNorm.ONE) := by
  unfold perCount
  rw [divf_at, scalar_bcast_at, cnt_apply, Cert.KernelIdeal.Reshapes.unrow_cast]

theorem scaleV_apply (G : Vec128) (T1 T2 : Row128) (M : Column) (d : Fin 128) :
    scaleV G T1 T2 M (ix1 d)
      = G (ix1 d) * Ideal.rsqrt ((Ideal.div (T2 (ix2 (0 : Fin 1) d)) (max (∑ j, M j) Cert.BatchNorm.ONE)
          - Ideal.div (T1 (ix2 (0 : Fin 1) d)) (max (∑ j, M j) Cert.BatchNorm.ONE) * Ideal.div (T1 (ix2 (0 : Fin 1) d)) (max (∑ j, M j) Cert.BatchNorm.ONE))
          + Cert.BatchNorm.EPS) := by
  unfold scaleV
  rw [mulf_at, rsqrt_at, addf_at, subf_at, mulf_at, scalar_bcast_at, constant_at, perCount_apply, perCount_apply]

theorem shiftV_apply (B G : Vec128) (T1 T2 : Row128) (M : Column) (d : Fin 128) :
    shiftV B G T1 T2 M (ix1 d)
      = B (ix1 d) - Ideal.div (T1 (ix2 (0 : Fin 1) d)) (max (∑ j, M j) Cert.BatchNorm.ONE) * scaleV G T1 T2 M (ix1 d) := by
  unfold shiftV
  rw [subf_at, mulf_at, perCount_apply]

/-! ### The fold through the program, read at each buffer the regions use -/

section
variable (m : (ℓ : Loc nD τ sig) → Buf (Elt Ideal) ℓ) (ρ : Dev nD → PrngReg)

/-- The statistics region is entered with the token features flattened to rows; -/
theorem entry_features (c : Dev nD) :
    V1 m ρ c main_v0 = shapeCast S262144x15 (m ((c : Thread nD τ).loc main_arg0)) shapeCasts_S8x128x256x15_S262144x15 := by
  show StableHlo.after hostOps0 (W0 m ρ c) (Proc.devRef .tc main_v0) = _
  after_results <;> rfl

/-- with the mask flattened to a column and read as a number; -/
theorem entry_weight (c : Dev nD) :
    V1 m ρ c main_v2 = (uitofp (F := Ideal) .f32 (shapeCast S262144x1 (m ((c : Thread nD τ).loc main_arg1)) shapeCasts_S8x128x256_S262144x1) : Column) := by
  show StableHlo.after hostOps0 (W0 m ρ c) (Proc.devRef .tc main_v2) = _
  after_results <;> rfl

/-- with the first weight matrix as launched; -/
theorem entry_W1 (c : Dev nD) : V1 m ρ c main_arg2 = m ((c : Thread nD τ).loc main_arg2) := by
  show StableHlo.after hostOps0 (W0 m ρ c) (Proc.devRef .tc main_arg2) = _
  after_results <;> rfl

/-- and with the first bias as a row. -/
theorem entry_b1 (c : Dev nD) :
    V1 m ρ c main_v3 = shapeCast S1x128 (m ((c : Thread nD τ).loc main_arg3)) shapeCasts_S128_S1x128 := by
  show StableHlo.after hostOps0 (W0 m ρ c) (Proc.devRef .tc main_v3) = _
  after_results <;> rfl

/-- The host operations before the statistics region write none of γ, β, the second weight matrix, the second bias. -/
theorem pre_arg4 (c : Dev nD) : W1 m ρ c (Proc.devRef .tc main_arg4) = m ((c : Thread nD τ).loc main_arg4) := by
  show StableHlo.after hostOps0 (W0 m ρ c) (Proc.devRef .tc main_arg4) = _
  after_results <;> rfl
theorem pre_arg5 (c : Dev nD) : W1 m ρ c (Proc.devRef .tc main_arg5) = m ((c : Thread nD τ).loc main_arg5) := by
  show StableHlo.after hostOps0 (W0 m ρ c) (Proc.devRef .tc main_arg5) = _
  after_results <;> rfl
theorem pre_arg6 (c : Dev nD) : W1 m ρ c (Proc.devRef .tc main_arg6) = m ((c : Thread nD τ).loc main_arg6) := by
  show StableHlo.after hostOps0 (W0 m ρ c) (Proc.devRef .tc main_arg6) = _
  after_results <;> rfl
theorem pre_arg7 (c : Dev nD) : W1 m ρ c (Proc.devRef .tc main_arg7) = m ((c : Thread nD τ).loc main_arg7) := by
  show StableHlo.after hostOps0 (W0 m ρ c) (Proc.devRef .tc main_arg7) = _
  after_results <;> rfl

/-- The statistics region leaves its input arrays as it found them, -/
theorem stats_keeps (c : Dev nD) (w : Fin cfg0.W) (hin : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hin _).trans (A_eq0 (V1 m ρ) c w))

/-- its two outputs at the totals, -/
theorem stats_total1 (c : Dev nD) : W2 m ρ c (Proc.devRef .tc main_v4_0) = StatsRegion.total1 (V1 m ρ) c :=
  (W2_arr m ρ c 4).trans (StatsRegion.final1 (V1 m ρ) c)
theorem stats_total2 (c : Dev nD) : W2 m ρ c (Proc.devRef .tc main_v4_1) = StatsRegion.total2 (V1 m ρ) c :=
  (W2_arr m ρ c 5).trans (StatsRegion.final2 (V1 m ρ) c)

/-- and every other buffer as it found it. -/
theorem stats_arg4 (c : Dev nD) : W2 m ρ c (Proc.devRef .tc main_arg4) = m ((c : Thread nD τ).loc main_arg4) :=
  (W2_of_ne m ρ c main_arg4 (by decide)).trans (pre_arg4 m ρ c)
theorem stats_arg5 (c : Dev nD) : W2 m ρ c (Proc.devRef .tc main_arg5) = m ((c : Thread nD τ).loc main_arg5) :=
  (W2_of_ne m ρ c main_arg5 (by decide)).trans (pre_arg5 m ρ c)
theorem stats_arg6 (c : Dev nD) : W2 m ρ c (Proc.devRef .tc main_arg6) = m ((c : Thread nD τ).loc main_arg6) :=
  (W2_of_ne m ρ c main_arg6 (by decide)).trans (pre_arg6 m ρ c)
theorem stats_arg7 (c : Dev nD) : W2 m ρ c (Proc.devRef .tc main_arg7) = m ((c : Thread nD τ).loc main_arg7) :=
  (W2_of_ne m ρ c main_arg7 (by decide)).trans (pre_arg7 m ρ c)

/-- The apply region is entered with the rows, the weight column, the first weight matrix and the first bias row as
    the statistics region was; -/
theorem apply_features (c : Dev nD) : V3 m ρ c main_v0 = V1 m ρ c main_v0 := by
  show StableHlo.after hostOps1 (W2 m ρ c) (Proc.devRef .tc main_v0) = _
  after_results
  exact stats_keeps m ρ c 0 rfl
theorem apply_weight (c : Dev nD) : V3 m ρ c main_v2 = V1 m ρ c main_v2 := by
  show StableHlo.after hostOps1 (W2 m ρ c) (Proc.devRef .tc main_v2) = _
  after_results
  exact stats_keeps m ρ c 1 rfl
theorem apply_W1 (c : Dev nD) : V3 m ρ c main_arg2 = V1 m ρ c main_arg2 := by
  show StableHlo.after hostOps1 (W2 m ρ c) (Proc.devRef .tc main_arg2) = _
  after_results
  exact stats_keeps m ρ c 2 rfl
theorem apply_b1 (c : Dev nD) : V3 m ρ c main_v3 = V1 m ρ c main_v3 := by
  show StableHlo.after hostOps1 (W2 m ρ c) (Proc.devRef .tc main_v3) = _
  after_results
  exact stats_keeps m ρ c 3 rfl

/-- with the second weight matrix as launched and the second bias as a row; -/
theorem apply_W2 (c : Dev nD) : V3 m ρ c main_arg6 = m ((c : Thread nD τ).loc main_arg6) := by
  show StableHlo.after hostOps1 (W2 m ρ c) (Proc.devRef .tc main_arg6) = _
  after_results
  exact stats_arg6 m ρ c
theorem apply_b2 (c : Dev nD) :
    V3 m ρ c main_v23 = shapeCast S1x128 (m ((c : Thread nD τ).loc main_arg7)) shapeCasts_S128_S1x128 := by
  rw [← stats_arg7 m ρ c]
  show StableHlo.after hostOps1 (W2 m ρ c) (Proc.devRef .tc main_v23) = _
  after_results <;> rfl

/-- The scale and shift rows as the host computes them from what the statistics region left. -/
theorem apply_scale_raw (c : Dev nD) :
    V3 m ρ c main_v21 = shapeCast S1x128 (scaleV (W2 m ρ c (Proc.devRef .tc main_arg4)) (W2 m ρ c (Proc.devRef .tc main_v4_0))
      (W2 m ρ c (Proc.devRef .tc main_v4_1)) (W2 m ρ c (Proc.devRef .tc main_v2))) shapeCasts_S128_S1x128 := by
  show StableHlo.after hostOps1 (W2 m ρ c) (Proc.devRef .tc main_v21) = _
  after_results <;> rfl
set_option maxHeartbeats 2000000 in
theorem apply_shift_raw (c : Dev nD) :
    V3 m ρ c main_v22 = shapeCast S1x128 (shiftV (W2 m ρ c (Proc.devRef .tc main_arg5)) (W2 m ρ c (Proc.devRef .tc main_arg4))
      (W2 m ρ c (Proc.devRef .tc main_v4_0)) (W2 m ρ c (Proc.devRef .tc main_v4_1)) (W2 m ρ c (Proc.devRef .tc main_v2))) shapeCasts_S128_S1x128 := by
  show StableHlo.after hostOps1 (W2 m ρ c) (Proc.devRef .tc main_v22) = _
  after_results
  unfold shiftV scaleV perCount cnt
  rfl

theorem stats_weight (c : Dev nD) : W2 m ρ c (Proc.devRef .tc main_v2) = V1 m ρ c main_v2 := stats_keeps m ρ c 1 rfl

/-- and with the scale and the shift rows the host computed from the totals. -/
theorem apply_scale (c : Dev nD) :
    V3 m ρ c main_v21 = shapeCast S1x128 (scaleV (m ((c : Thread nD τ).loc main_arg4)) (StatsRegion.total1 (V1 m ρ) c)
      (StatsRegion.total2 (V1 m ρ) c) (V1 m ρ c main_v2)) shapeCasts_S128_S1x128 := by
  rw [apply_scale_raw, stats_arg4, stats_total1, stats_total2, stats_weight]
theorem apply_shift (c : Dev nD) :
    V3 m ρ c main_v22 = shapeCast S1x128 (shiftV (m ((c : Thread nD τ).loc main_arg5)) (m ((c : Thread nD τ).loc main_arg4))
      (StatsRegion.total1 (V1 m ρ) c) (StatsRegion.total2 (V1 m ρ) c) (V1 m ρ c main_v2)) shapeCasts_S128_S1x128 := by
  rw [apply_shift_raw, stats_arg4, stats_arg5, stats_total1, stats_total2, stats_weight]

/-- The program's result is the apply region's output array folded back to four axes. -/
theorem result_fold (c : Dev nD) :
    W5 m ρ c (Proc.devRef .tc main_v25)
      = shapeCast S8x128x256x128 (ApplyRegion.result (V3 m ρ) c) shapeCasts_S262144x128_S8x128x256x128 := by
  rw [← show W4 m ρ c (Proc.devRef .tc main_v24) = ApplyRegion.result (V3 m ρ) c from (W4_arr m ρ c 8).trans (ApplyRegion.final (V3 m ρ) c)]
  show StableHlo.after hostOps2 (W4 m ρ c) (Proc.devRef .tc main_v25) = _
  after_results <;> rfl

end

end Cert.KernelIdeal.Glue

end
-- ==== Proof.KernelValue.lean ====
/-
  The idealized kernel program's result, read at an index, is form K of the specification over the kernel's tokens.

  The kernel's token `(t, p)` is row `2048·t + p` of the flattened arrays, which is the reference's token
  `(a, b, n)` with `(a·128 + b)·256 + n` the same row. Reading the flattened features and weight column at that row
  gives the token's features and weight; the statistics region's totals, summed over grid points and block rows, are the
  specification's sums over tokens; the host's scale and shift are the specification's `g · rsqrt (varK + ε)` and
  `b − mean · (g · rsqrt (varK + ε))`; and the apply region's row is the specification's output row.
-/
import proofs.«131541_j88476326297844_1_alg».proof.Proof.Glue
import proofs.«131541_j88476326297844_1_alg».proof.Proof.Tokens
import proofs.«131541_j88476326297844_1_alg».proof.Proof.Reshapes
import proofs.«131541_j88476326297844_1_alg».proof.Proof.Spec

set_option maxRecDepth 16384

noncomputable section

namespace Cert.KernelSide

open Cert.KernelIdeal Cert.KernelIdeal.Gen
open Idealize.ShloMosaic Idealize.ShloMosaic.TcCoe Idealize.SL.Sem Idealize.ShloMosaic.ValueIdx
open Cert.Tokens Cert.BatchNorm Cert.KernelIdeal.Glue Cert.KernelIdeal.Reshapes
open Cert.KernelIdeal.StatsRegion (rowN rowN_val hidRow part1 part2 total1 total2)
open Cert.KernelIdeal.Glue (Column)
open Cert.KernelIdeal.ApplyRegion (applyRow applyArr applyArr_ix2)

variable (m : (ℓ : Loc nD τ sig) → Buf (Elt Ideal) ℓ) (ρ : Dev nD → PrngReg) (c : Dev nD)

/-! ### The specification's arguments, from the launch memory -/

/-- A kernel token's 15 features. -/
abbrev feat : KTok → Fin 15 → EReal :=
  fun j k => m ((c : Thread nD τ).loc main_arg0) (ix4 (toR j).1 (toR j).2.1 (toR j).2.2 k)
/-- A kernel token's weight: its mask bit read as a number. -/
abbrev wgt : KTok → EReal :=
  fun j => FloatOps.uitofp (F := Ideal) .f32 (m ((c : Thread nD τ).loc main_arg1) (ix3 (toR j).1 (toR j).2.1 (toR j).2.2))
abbrev w1 : Fin 15 → Fin 128 → EReal := fun k d => m ((c : Thread nD τ).loc main_arg2) (ix2 k d)
abbrev bias1 : Fin 128 → EReal := fun d => m ((c : Thread nD τ).loc main_arg3) (ix1 d)
abbrev gam : Fin 128 → EReal := fun d => m ((c : Thread nD τ).loc main_arg4) (ix1 d)
abbrev bet : Fin 128 → EReal := fun d => m ((c : Thread nD τ).loc main_arg5) (ix1 d)
abbrev w2 : Fin 128 → Fin 128 → EReal := fun d e => m ((c : Thread nD τ).loc main_arg6) (ix2 d e)
abbrev bias2 : Fin 128 → EReal := fun e => m ((c : Thread nD τ).loc main_arg7) (ix1 e)

/-! ### The flattened arrays at a kernel token's row -/

theorem rowOf_eq_flat (j : KTok) : rowOf j = flat (toR j) := Fin.ext (flat_toR j).symm

theorem features_at (j : KTok) (k : Fin 15) : V1 m ρ c main_v0 (ix2 (rowOf j) k) = feat m c j k := by
  rw [entry_features, rowOf_eq_flat, features_apply]

theorem weight_at (j : KTok) : V1 m ρ c main_v2 (ix2 (rowOf j) (0 : Fin 1)) = wgt m c j := by
  rw [entry_weight]
  show FloatOps.uitofp (F := Ideal) .f32 (shapeCast S262144x1 (m ((c : Thread nD τ).loc main_arg1)) shapeCasts_S8x128x256_S262144x1 (ix2 (rowOf j) (0 : Fin 1))) = _
  rw [rowOf_eq_flat, mask_apply]

theorem w1_at (k : Fin 15) (d : Fin 128) : V1 m ρ c main_arg2 (ix2 k d) = w1 m c k d := by
  rw [entry_W1]

theorem bias1_at (d : Fin 128) : V1 m ρ c main_v3 (ix2 (0 : Fin 1) d) = bias1 m c d := by
  rw [entry_b1, row_apply]

theorem rowN_eq (j : KTok) : rowN j.1.val j.2 = rowOf j :=
  Fin.ext (rowN_val j.1.val j.1.isLt j.2)

/-- The hidden layer of a kernel token's row is the specification's. -/
theorem hidden_at (j : KTok) (d : Fin 128) :
    hidRow (V1 m ρ c main_v0) (V1 m ρ c main_arg2) (V1 m ρ c main_v3) (rowOf j) d = hid (feat m c) (w1 m c) (bias1 m c) d j := by
  unfold hidRow hid
  rw [bias1_at]
  refine congrArg (· + _) (Finset.sum_congr rfl fun k _ => ?_)
  rw [features_at, w1_at]

/-! ### The statistics region's totals are sums over tokens -/

theorem total1_at (d : Fin 128) :
    total1 (V1 m ρ) c (ix2 (0 : Fin 1) d) = ∑ j : KTok, hid (feat m c) (w1 m c) (bias1 m c) d j * wgt m c j := by
  show ∑ t ∈ Finset.range 128, part1 (V1 m ρ c main_v0) (V1 m ρ c main_v2) (V1 m ρ c main_arg2) (V1 m ρ c main_v3) t d = _
  unfold part1
  rw [sum_points_rows (fun t p => hidRow (V1 m ρ c main_v0) (V1 m ρ c main_arg2) (V1 m ρ c main_v3) (rowN t p) d * V1 m ρ c main_v2 (ix2 (rowN t p) (0 : Fin 1)))]
  refine Finset.sum_congr rfl fun j _ => ?_
  rw [rowN_eq, hidden_at, weight_at]

theorem total2_at (d : Fin 128) :
    total2 (V1 m ρ) c (ix2 (0 : Fin 1) d)
      = ∑ j : KTok, hid (feat m c) (w1 m c) (bias1 m c) d j * wgt m c j * hid (feat m c) (w1 m c) (bias1 m c) d j := by
  show ∑ t ∈ Finset.range 128, part2 (V1 m ρ c main_v0) (V1 m ρ c main_v2) (V1 m ρ c main_arg2) (V1 m ρ c main_v3) t d = _
  unfold part2
  rw [sum_points_rows (fun t p => (hidRow (V1 m ρ c main_v0) (V1 m ρ c main_arg2) (V1 m ρ c main_v3) (rowN t p) d * V1 m ρ c main_v2 (ix2 (rowN t p) (0 : Fin 1)))
    * hidRow (V1 m ρ c main_v0) (V1 m ρ c main_arg2) (V1 m ρ c main_v3) (rowN t p) d)]
  refine Finset.sum_congr rfl fun j _ => ?_
  rw [rowN_eq, hidden_at, weight_at]

theorem weights_sum (M : Column) (hM : ∀ j : KTok, M (ix2 (rowOf j) (0 : Fin 1)) = wgt m c j) :
    ∑ i, M i = ∑ j : KTok, wgt m c j := by
  rw [sum_column M]
  exact Finset.sum_congr rfl fun j _ => hM j

/-! ### Scale and shift -/

theorem scale_at (d : Fin 128) :
    V3 m ρ c main_v21 (ix2 (0 : Fin 1) d)
      = gam m c d * Ideal.rsqrt (varK (hid (feat m c) (w1 m c) (bias1 m c) d) (wgt m c) + EPS) := by
  rw [apply_scale, row_apply, scaleV_apply, total1_at, total2_at, weights_sum m c _ (weight_at m ρ c)]
  rfl

theorem shift_at (d : Fin 128) :
    V3 m ρ c main_v22 (ix2 (0 : Fin 1) d)
      = bet m c d - meanOf (hid (feat m c) (w1 m c) (bias1 m c) d) (wgt m c)
          * (gam m c d * Ideal.rsqrt (varK (hid (feat m c) (w1 m c) (bias1 m c) d) (wgt m c) + EPS)) := by
  rw [apply_shift, row_apply, shiftV_apply, scaleV_apply, total1_at, total2_at, weights_sum m c _ (weight_at m ρ c)]
  rfl

/-! ### The result -/

/-- The hidden layer the apply region recomputes for a kernel token's row is the specification's. -/
theorem hidden_apply (j : KTok) (d : Fin 128) :
    hidRow (V3 m ρ c main_v0) (V3 m ρ c main_arg2) (V3 m ρ c main_v3) (rowOf j) d
      = hid (feat m c) (w1 m c) (bias1 m c) d j := by
  rw [apply_features, apply_W1, apply_b1]
  exact hidden_at m ρ c j d

/-- The apply region's output at a kernel token's row is the specification's output row. -/
theorem apply_at (j : KTok) (e : Fin 128) :
    ApplyRegion.result (V3 m ρ) c (ix2 (rowOf j) e)
      = outK (feat m c) (wgt m c) (w1 m c) (bias1 m c) (gam m c) (bet m c) (w2 m c) (bias2 m c) j e := by
  show applyRow (V3 m ρ c main_v0) (V3 m ρ c main_v2) (V3 m ρ c main_arg2) (V3 m ρ c main_v3) (V3 m ρ c main_v21) (V3 m ρ c main_v22)
    (V3 m ρ c main_arg6) (V3 m ρ c main_v23) (rowOf j) e = _
  unfold applyRow outK actK
  rw [apply_weight, weight_at, apply_b2, row_apply]
  refine congrArg (· * _) (congrArg (· + _) (Finset.sum_congr rfl fun d _ => ?_))
  have hh := hidden_apply m ρ c j d
  unfold hidRow at hh
  rw [hh, apply_W2, scale_at, shift_at]

/-- The program's result at `(a, b, n, e)` is the specification's output for the kernel token of that row. -/
theorem result_at (t : RTok) (e : Fin 128) :
    W5 m ρ c (Proc.devRef .tc main_v25) (ix4 t.1 t.2.1 t.2.2 e)
      = outK (feat m c) (wgt m c) (w1 m c) (bias1 m c) (gam m c) (bet m c) (w2 m c) (bias2 m c) (toR.symm t) e := by
  rw [result_fold, result_apply, ← apply_at]
  refine congrArg (fun r => ApplyRegion.result (V3 m ρ) c (ix2 r e)) (Fin.ext ?_)
  exact (rowOf_symm t).symm

end Cert.KernelSide

end
-- ==== Proof.RefSide.lean ====
/-
  The reference program's result, read at an index, is form R of the specification.

  The reference computes, for token (a, b, n) and output feature e: the hidden layer h = x·W1 + b1, the count of
  weighted tokens floored at one, the weighted mean and the weighted variance (as the mean of squared deviations) of
  each hidden feature over all tokens, the normalised feature (h − mean)·rsqrt(var + ε)·γ + β clamped below at zero,
  the second linear layer, and the product with the token's weight. Each stage is read at an index built from literal
  coordinates; the two sums over the three token axes are read as sums over the product of the three coordinate ranges.
-/
import proofs.«131541_j88476326297844_1_alg».proof.Proof.Gen.ReferenceIdeal.Read
import proofs.«131541_j88476326297844_1_alg».proof.Proof.Spec

noncomputable section

namespace Cert.RefSide

open Idealize.ShloMosaic Idealize.ShloMosaic.ValueIdx Idealize.SL.Sem Cert.ReferenceIdeal Cert.BatchNorm

/-- A token: its three coordinates. -/
abbrev Tok := Fin 8 × Fin 128 × Fin 256

/-- The 15 input features of a token. -/
abbrev tokX (x0 : S8x128x256x15.Idx → EReal) : Tok → Fin 15 → EReal := fun j c => x0 (ix4 j.1 j.2.1 j.2.2 c)

/-- The weight of a token: its one-bit mask read as a number. -/
abbrev tokM (x1 : S8x128x256.Idx → BitVec 1) : Tok → EReal :=
  fun j => FloatOps.uitofp (F := Ideal) .f32 (x1 (ix3 j.1 j.2.1 j.2.2))

open Cert.ReferenceIdeal.Gen Cert.ReferenceIdeal.Read

/-- A one-bit word read as a number is 0 or 1. -/
theorem tokM_zero_or_one (x1 : S8x128x256.Idx → BitVec 1) (j : Tok) : tokM x1 j = 0 ∨ tokM x1 j = 1 := by
  show ((((x1 (ix3 j.1 j.2.1 j.2.2)).toNat : ℝ) : EReal)) = 0 ∨ ((((x1 (ix3 j.1 j.2.1 j.2.2)).toNat : ℝ) : EReal)) = 1
  rcases BitVec.eq_zero_or_eq_one (x1 (ix3 j.1 j.2.1 j.2.2)) with h | h
  · left; rw [h]; simp
  · right; rw [h]; simp

/-! ### The index maps of the layout operations, at an index given by its coordinates -/

section Idx
variable (a : Fin 8) (b : Fin 128) (n : Fin 256)

theorem idx_v0 (z : Fin 1) : idx_main_v0 (ix4 a b n z) = ix3 a b n := by
  funext d; match d with | ⟨0, _⟩ => rfl | ⟨1, _⟩ => rfl | ⟨2, _⟩ => rfl
theorem idx_v8 (d : Fin 128) : idx_main_v8 (ix4 a b n d) = ix4 a b n (0 : Fin 1) := by
  funext k; match k with | ⟨0, _⟩ => rfl | ⟨1, _⟩ => rfl | ⟨2, _⟩ => rfl | ⟨3, _⟩ => rfl
theorem idx_v17 (d : Fin 128) : idx_main_v17 (ix4 a b n d) = ix4 a b n (0 : Fin 1) := by
  funext k; match k with | ⟨0, _⟩ => rfl | ⟨1, _⟩ => rfl | ⟨2, _⟩ => rfl | ⟨3, _⟩ => rfl
theorem idx_v42 (d : Fin 128) : idx_main_v42 (ix4 a b n d) = ix4 a b n (0 : Fin 1) := by
  funext k; match k with | ⟨0, _⟩ => rfl | ⟨1, _⟩ => rfl | ⟨2, _⟩ => rfl | ⟨3, _⟩ => rfl
theorem lidx_v2 (d : Fin 128) (k : Fin 15) : lidx_main_v2 (ix4 a b n d) k = ix4 a b n k := by
  funext q; match q with | ⟨0, _⟩ => rfl | ⟨1, _⟩ => rfl | ⟨2, _⟩ => rfl | ⟨3, _⟩ => rfl
theorem ridx_v2 (d : Fin 128) (k : Fin 15) : ridx_main_v2 (ix4 a b n d) k = ix2 k d := by
  funext q; match q with | ⟨0, _⟩ => rfl | ⟨1, _⟩ => rfl
theorem lidx_v38 (e : Fin 128) (k : Fin 128) : lidx_main_v38 (ix4 a b n e) k = ix4 a b n k := by
  funext q; match q with | ⟨0, _⟩ => rfl | ⟨1, _⟩ => rfl | ⟨2, _⟩ => rfl | ⟨3, _⟩ => rfl
theorem ridx_v38 (e : Fin 128) (k : Fin 128) : ridx_main_v38 (ix4 a b n e) k = ix2 k e := by
  funext q; match q with | ⟨0, _⟩ => rfl | ⟨1, _⟩ => rfl
theorem idx_v3v4 (d : Fin 128) : idx_main_v3 (idx_main_v4 (ix4 a b n d)) = ix1 d := by
  funext q; match q with | ⟨0, _⟩ => rfl
theorem idx_v13v14 (d : Fin 128) : idx_main_v13 (idx_main_v14 (ix4 a b n d)) = ix1 d := by
  funext q; match q with | ⟨0, _⟩ => rfl
theorem idx_v22v23 (d : Fin 128) : idx_main_v22 (idx_main_v23 (ix4 a b n d)) = ix1 d := by
  funext q; match q with | ⟨0, _⟩ => rfl
theorem idx_v28v29 (d : Fin 128) : idx_main_v28 (idx_main_v29 (ix4 a b n d)) = ix1 d := by
  funext q; match q with | ⟨0, _⟩ => rfl
theorem idx_v31v32 (d : Fin 128) : idx_main_v31 (idx_main_v32 (ix4 a b n d)) = ix1 d := by
  funext q; match q with | ⟨0, _⟩ => rfl
theorem idx_v34v35 (d : Fin 128) : idx_main_v34 (idx_main_v35 (ix4 a b n d)) = ix1 d := by
  funext q; match q with | ⟨0, _⟩ => rfl
theorem idx_v39v40 (d : Fin 128) : idx_main_v39 (idx_main_v40 (ix4 a b n d)) = ix1 d := by
  funext q; match q with | ⟨0, _⟩ => rfl

end Idx

/-! ### The tokens as an index set -/

/-- The indices of the mask array [8,128,256,1] are the tokens. -/
def tokEquiv : S8x128x256x1.Idx ≃ Tok where
  toFun i := (i 0, i 1, i 2)
  invFun t := ix4 t.1 t.2.1 t.2.2 (0 : Fin 1)
  left_inv i := by
    funext d
    match d with
    | ⟨0, _⟩ => rfl
    | ⟨1, _⟩ => rfl
    | ⟨2, _⟩ => rfl
    | ⟨3, _⟩ => exact Subsingleton.elim (α := Fin 1) _ _
  right_inv _ := rfl

/-- The indices of a [8,128,256,128] array with last coordinate d are the tokens. -/
def tokEmb (d : Fin 128) : Tok ↪ S8x128x256x128.Idx :=
  ⟨fun t => ix4 t.1 t.2.1 t.2.2 d, fun t t' h => by
    have h0 : t.1 = t'.1 := congrFun h 0
    have h1 : t.2.1 = t'.2.1 := congrFun h 1
    have h2 : t.2.2 = t'.2.2 := congrFun h 2
    exact Prod.ext h0 (Prod.ext h1 h2)⟩

/-- Dropping the three token axes of (a, b, n, d) leaves d; -/
theorem drop_ix4 (a : Fin 8) (b : Fin 128) (n : Fin 256) (d : Fin 128) :
    reducesTo_S8x128x256x128_S128_d0_1_2.drop (ix4 a b n d) = ix1 d := by
  funext q
  match q with
  | ⟨0, _⟩ => rfl

/-- so the indices a sum over the token axes adds up at d are exactly the (a, b, n, d). -/
theorem filter_drop (d : Fin 128) :
    Finset.univ.filter (fun i : S8x128x256x128.Idx => reducesTo_S8x128x256x128_S128_d0_1_2.drop i = ix1 d)
      = Finset.univ.map (tokEmb d) := by
  ext i
  simp only [Finset.mem_filter, Finset.mem_univ, true_and, Finset.mem_map, tokEmb, Function.Embedding.coeFn_mk]
  constructor
  · intro h
    have h3 : (i 3 : Fin 128) = d := congrFun h 0
    refine ⟨(i 0, i 1, i 2), ?_⟩
    funext q
    match q with
    | ⟨0, _⟩ => rfl
    | ⟨1, _⟩ => rfl
    | ⟨2, _⟩ => rfl
    | ⟨3, _⟩ => exact h3.symm
  · rintro ⟨t, rfl⟩
    exact drop_ix4 _ _ _ d

/-- A float sum over the three token axes, read at d: the initial value plus the sum over the tokens. -/
theorem reduce_apply (y : S8x128x256x128.Idx → EReal) (init : EReal) (d : Fin 128) :
    Ideal.hostReduceAdd reducesTo_S8x128x256x128_S128_d0_1_2 y init (ix1 d)
      = init + ∑ t : Tok, y (ix4 t.1 t.2.1 t.2.2 d) := by
  unfold Ideal.hostReduceAdd
  rw [filter_drop, Finset.sum_map]
  rfl

/-! ### The stages of the reference, each read at an index -/

section Stages
variable (x0 : (⟨S8x128x256x15, .f32⟩ : BufTy).Contents (Elt Ideal)) (x1 : (⟨S8x128x256, .i1⟩ : BufTy).Contents (Elt Ideal))
  (x2 : (⟨S15x128, .f32⟩ : BufTy).Contents (Elt Ideal)) (x3 x4 x5 : (⟨S128, .f32⟩ : BufTy).Contents (Elt Ideal))
  (x6 : (⟨S128x128, .f32⟩ : BufTy).Contents (Elt Ideal)) (x7 : (⟨S128, .f32⟩ : BufTy).Contents (Elt Ideal))
  (a : Fin 8) (b : Fin 128) (n : Fin 256)

/-- The mask as a number, at (a, b, n, 0): the token's weight. -/
theorem mask1 (z : Fin 1) : val_main_v1 (F := Ideal) x1 (ix4 a b n z) = tokM x1 (a, b, n) := by
  rw [val_main_v1_apply, val_main_v0_apply, idx_v0]

/-- The weight broadcast along the features (its three uses in the program). -/
theorem mask8 (d : Fin 128) : val_main_v8 (F := Ideal) x1 (ix4 a b n d) = tokM x1 (a, b, n) := by
  rw [val_main_v8_apply, idx_v8, mask1]
theorem mask17 (d : Fin 128) : val_main_v17 (F := Ideal) x1 (ix4 a b n d) = tokM x1 (a, b, n) := by
  rw [val_main_v17_apply, idx_v17, mask1]
theorem mask42 (d : Fin 128) : val_main_v42 (F := Ideal) x1 (ix4 a b n d) = tokM x1 (a, b, n) := by
  rw [val_main_v42_apply, idx_v42, mask1]

/-- The hidden layer at (a, b, n, d). -/
theorem hid_eq (d : Fin 128) : val_main_v5 (F := Ideal) x0 x2 x3 (ix4 a b n d)
    = hid (tokX x0) (fun cc d' => x2 (ix2 cc d')) (fun d' => x3 (ix1 d')) d (a, b, n) := by
  rw [val_main_v5_apply, val_main_v2_apply, val_main_v4_apply, val_main_v3_apply, idx_v3v4]
  simp only [lidx_v2, ridx_v2]
  rfl

/-- The count of weighted tokens, floored at one. -/
theorem count_eq (i : S_.Idx) : val_main_v7 (F := Ideal) x1 i = count (tokM x1) := by
  rw [val_main_v7_apply, val_main_v6_apply]
  show max (Ideal.ofBits .f32 0x00000000#32 + ∑ j : S8x128x256x1.Idx, val_main_v1 (F := Ideal) x1 j)
    (Ideal.ofBits .f32 0x3F800000#32) = _
  rw [Ideal.ofBits_zero_f32, zero_add, ← Equiv.sum_comp tokEquiv.symm]
  refine congrArg (fun s => max s ONE) (Finset.sum_congr rfl fun t _ => ?_)
  exact mask1 x1 t.1 t.2.1 t.2.2 0

/-- The weighted mean of hidden feature d. -/
theorem mean_eq (d : Fin 128) : val_main_v12 (F := Ideal) x0 x1 x2 x3 (ix1 d)
    = meanOf (hid (tokX x0) (fun cc d' => x2 (ix2 cc d')) (fun d' => x3 (ix1 d')) d) (tokM x1) := by
  rw [val_main_v12_apply, val_main_v11_apply, count_eq]
  show Ideal.div (Ideal.hostReduceAdd reducesTo_S8x128x256x128_S128_d0_1_2 (val_main_v9 (F := Ideal) x0 x1 x2 x3)
    (Ideal.ofBits .f32 0x00000000#32) (ix1 d)) _ = _
  rw [reduce_apply, Ideal.ofBits_zero_f32, zero_add]
  refine congrArg (fun s => Ideal.div s (count (tokM x1))) (Finset.sum_congr rfl fun t _ => ?_)
  rw [val_main_v9_apply, hid_eq, mask8]
  rfl

/-- The weighted variance of hidden feature d, as the mean of squared deviations. -/
theorem var_eq (d : Fin 128) : val_main_v21 (F := Ideal) x0 x1 x2 x3 (ix1 d)
    = varR (hid (tokX x0) (fun cc d' => x2 (ix2 cc d')) (fun d' => x3 (ix1 d')) d) (tokM x1) := by
  rw [val_main_v21_apply, val_main_v20_apply, count_eq]
  show Ideal.div (Ideal.hostReduceAdd reducesTo_S8x128x256x128_S128_d0_1_2 (val_main_v18 (F := Ideal) x0 x1 x2 x3)
    (Ideal.ofBits .f32 0x00000000#32) (ix1 d)) _ = _
  rw [reduce_apply, Ideal.ofBits_zero_f32, zero_add]
  refine congrArg (fun s => Ideal.div s (count (tokM x1))) (Finset.sum_congr rfl fun t _ => ?_)
  rw [val_main_v18_apply, val_main_v16_apply, val_main_v15_apply, val_main_v14_apply, val_main_v13_apply, idx_v13v14,
    mean_eq, hid_eq, mask17]
  rfl

/-- The normalised, scaled, shifted and clamped feature d of token (a, b, n). -/
theorem act_eq (d : Fin 128) : val_main_v37 (F := Ideal) x0 x1 x2 x3 x4 x5 (ix4 a b n d)
    = actR (hid (tokX x0) (fun cc d' => x2 (ix2 cc d')) (fun d' => x3 (ix1 d')) d) (tokM x1) (x4 (ix1 d)) (x5 (ix1 d))
        (a, b, n) := by
  rw [val_main_v37_apply, val_main_v36_apply, val_main_v33_apply, val_main_v30_apply, val_main_v24_apply,
    val_main_v23_apply, val_main_v22_apply, idx_v22v23, mean_eq, hid_eq,
    val_main_v29_apply, val_main_v28_apply, idx_v28v29, val_main_v27_apply, val_main_v26_apply, var_eq,
    val_main_v25_apply, val_main_cst_3_apply,
    val_main_v32_apply, val_main_v31_apply, idx_v31v32, val_main_v35_apply, val_main_v34_apply, idx_v34v35,
    val_main_call0_v0_apply, val_main_call0_cst_apply]
  simp only [Ideal.maximumf_def, Ideal.addf_def, Ideal.mulf_def, Ideal.subf_def, Ideal.hostUnary_rsqrt_def,
    Ideal.ofBits_def, Ideal.ofBits_zero_f32]
  rfl

/-- The output feature e of token (a, b, n). -/
theorem out_eq (e : Fin 128) : val_main_v43 (F := Ideal) x0 x1 x2 x3 x4 x5 x6 x7 (ix4 a b n e)
    = outR (tokX x0) (tokM x1) (fun cc d' => x2 (ix2 cc d')) (fun d' => x3 (ix1 d')) (fun d' => x4 (ix1 d'))
        (fun d' => x5 (ix1 d')) (fun d' e' => x6 (ix2 d' e')) (fun e' => x7 (ix1 e')) (a, b, n) e := by
  rw [val_main_v43_apply, val_main_v41_apply, val_main_v38_apply, val_main_v40_apply, val_main_v39_apply, idx_v39v40,
    mask42]
  simp only [lidx_v38, ridx_v38, act_eq]
  rfl

end Stages

/-- The reference's result at (a, b, n, e) is form R of the specification at the launch contents of its arguments. -/
theorem ref_eq (m : (ℓ : Loc nD τ sig) → Buf (Elt Ideal) ℓ) (c : Dev nD) (a : Fin 8) (b : Fin 128) (n : Fin 256) (e : Fin 128) :
    Cert.ReferenceIdeal.Value.res_out0 (F := Ideal) m c (ix4 a b n e)
      = outR (tokX (m ((c.tc : Thread nD τ).loc main_arg0))) (tokM (m ((c.tc : Thread nD τ).loc main_arg1)))
          (fun cc d => m ((c.tc : Thread nD τ).loc main_arg2) (ix2 cc d)) (fun d => m ((c.tc : Thread nD τ).loc main_arg3) (ix1 d))
          (fun d => m ((c.tc : Thread nD τ).loc main_arg4) (ix1 d)) (fun d => m ((c.tc : Thread nD τ).loc main_arg5) (ix1 d))
          (fun d e' => m ((c.tc : Thread nD τ).loc main_arg6) (ix2 d e')) (fun e' => m ((c.tc : Thread nD τ).loc main_arg7) (ix1 e'))
          (a, b, n) e :=
  (congrFun (val_main_v43_eq (F := Ideal) m c) (ix4 a b n e)).trans
    (out_eq (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) a b n e)

end Cert.RefSide

end
-- ==== Proof.Finite.lean ====
/-
  From the precondition (every float argument has all entries of absolute value below +∞) to the statement
  that every entry of every float argument is a real number.
-/
import proofs.«131541_j88476326297844_1_alg».proof.Defs
import Idealize.ShloMosaic.Lib.ReduceAll
import Idealize.ShloMosaic.Lib.ValueIdx

noncomputable section

namespace Cert.Finite

open Idealize.ShloMosaic Idealize.SL.Sem Cert.KernelIdeal

/-- The rank-0 shape has a single index. -/
instance : Subsingleton Cert.Pre_finite_inputs.S_.Idx := ⟨fun a b => funext fun d => d.elim0⟩

/-- The binary32 word 0x7F800000 denotes +∞. -/
theorem inf_word : Ideal.ofBits .f32 0x7F800000#32 = (⊤ : EReal) := by
  simp [Ideal.ofBits, Ideal.ieee]

/-- An extended real whose absolute value max x (−x) lies strictly below +∞ is a real number:
    x < ⊤ excludes ⊤, and −x < ⊤ excludes ⊥. -/
theorem real_of_abs_lt_top (x : EReal) (h : max x (-x) < ⊤) : ∃ r : ℝ, x = (r : EReal) := by
  obtain ⟨h1, h2⟩ := max_lt_iff.1 h
  induction x using EReal.rec with
  | bot => simp at h2
  | coe r => exact ⟨r, rfl⟩
  | top => simp at h1

/-- One conjunct of the precondition, read back: if the and-reduction over all axes of the comparison
    |x| < +∞ is 1, every entry of x is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf CmpFPredicate.olt (Host.absf x)
            (broadcastInDim s ![] hb (constant Cert.Pre_finite_inputs.S_ FTy.f32 0x7F800000#32)))
          (constantI Cert.Pre_finite_inputs.S_ 1 1#1) hr hu ValueIdx.ix0 = 1#1)
    (i : s.Idx) : ∃ r : ℝ, x i = (r : EReal) := by
  have hi := Host.reduce_andi_all _ _ hr hu ValueIdx.ix0 e i
  have hi' : Ideal.cmp CmpFPredicate.olt (max (x i) (-(x i))) (Ideal.ofBits .f32 0x7F800000#32) = 1#1 := hi
  rw [inf_word] at hi'
  have hb' : BitVec.ofBool (decide (max (x i) (-(x i)) < (⊤ : EReal))) = 1#1 := hi'
  refine real_of_abs_lt_top (x i) ?_
  cases hd : decide (max (x i) (-(x i)) < (⊤ : EReal)) with
  | false => rw [hd] at hb'; exact absurd hb' (by decide)
  | true => exact of_decide_eq_true hd

theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread nD τ).loc main_arg0) i = (r : EReal))
    ∧ (∀ i, ∃ r : ℝ, m ((c.tc : Thread nD τ).loc main_arg2) i = (r : EReal))
    ∧ (∀ i, ∃ r : ℝ, m ((c.tc : Thread nD τ).loc main_arg3) i = (r : EReal))
    ∧ (∀ i, ∃ r : ℝ, m ((c.tc : Thread nD τ).loc main_arg4) i = (r : EReal))
    ∧ (∀ i, ∃ r : ℝ, m ((c.tc : Thread nD τ).loc main_arg5) i = (r : EReal))
    ∧ (∀ i, ∃ r : ℝ, m ((c.tc : Thread nD τ).loc main_arg6) i = (r : EReal))
    ∧ (∀ i, ∃ r : ℝ, m ((c.tc : Thread nD τ).loc main_arg7) i = (r : EReal)) := by
  have h0 := congrFun (h c) ValueIdx.ix0
  dsimp only [Cert.Pre_finite_inputs.fn, Cert.Pre_finite_inputs.fn_part1] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all _ _ _ _ e0, real_of_all _ _ _ _ e2, real_of_all _ _ _ _ e3, real_of_all _ _ _ _ e4,
    real_of_all _ _ _ _ e5, real_of_all _ _ _ _ e6, real_of_all _ _ _ _ e7⟩

end Cert.Finite

end
-- ==== Proof.Laws.lean ====
/-
  Laws on the extended reals that join the two arithmetic forms of the masked batch normalisation.

  Over the reals the two forms agree: with weights in {0,1}, S their sum and cnt = max S 1,
    ∑ mv (h − mean)² / cnt = ∑ mv h² / cnt − 2·mean² + mean²·S/cnt,
  and S/cnt = 1 once S ≥ 1, while S < 1 forces every weight to vanish and the mean with them.
  On the extended reals these laws fail at the infinities, so every hypothesis says "is a real".
-/
import proofs.«131541_j88476326297844_1_alg».proof.Proof.Spec

noncomputable section

namespace Cert.BatchNorm

open Idealize.ShloMosaic

/-! ### The two constants -/

/-- The binary32 word 0x3F800000 has a clear sign, exponent field 127 and fraction 0: it is 2²³ · 2⁻²³ = 1. -/
theorem ONE_eq : (ONE : EReal) = ((1 : ℝ) : EReal) := by
  simp [ONE, Ideal.ofBits, Ideal.ieee]
  rw [← EReal.coe_mul]
  norm_num

/-- The binary32 word 0x3727C5AC has a clear sign, exponent field 110 and fraction 2606508:
    it is the positive real (2²³ + 2606508) · 2⁻⁴⁰. -/
theorem EPS_pos : ∃ r : ℝ, 0 < r ∧ (EPS : EReal) = (r : EReal) := by
  have h1 : (BitVec.extractLsb' 23 8 (0x3727C5AC#32)).toNat = 110 := by decide
  have h2 : (BitVec.extractLsb' 0 23 (0x3727C5AC#32)).toNat = 2606508 := by decide
  have h3 : (BitVec.extractLsb' (8 + 23) 1 (0x3727C5AC#32) == 1#1) = false := by decide
  refine ⟨(1 : ℝ) * ((2 ^ 23 + 2606508 : ℕ) : ℝ) * (2 : ℝ) ^ (((110 : ℕ) : ℤ) - (2 ^ (8 - 1) - 1) - ((23 : ℕ) : ℤ)),
    by positivity, ?_⟩
  simp only [EPS, Ideal.ofBits, Ideal.ieee, h1, h2, h3]
  norm_num

/-! ### Finite sums of reals -/

namespace Laws

/-- The coercion of a finite sum of reals is the sum of the coercions. -/
theorem coe_sum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

end Laws

/-! ### The real-number core

  Both variances and the mean, written over the reals with the division already turned into a product
  with the reciprocal of the count. -/

namespace Laws

section RealCore
variable {ι : Type} [Fintype ι]

/-- The count over the reals: the sum of the weights, floored at one. -/
def cntRe (m : ι → ℝ) : ℝ := max (∑ j, m j) 1
/-- The weighted mean over the reals. -/
def meanRe (h m : ι → ℝ) : ℝ := (∑ j, h j * m j) * (1 / cntRe m)
/-- Mean of squares minus squared mean, over the reals. -/
def varKRe (h m : ι → ℝ) : ℝ := (∑ j, h j * m j * h j) * (1 / cntRe m) - meanRe h m * meanRe h m
/-- Mean of squared deviations, over the reals. -/
def varRRe (h m : ι → ℝ) : ℝ := (∑ j, (h j - meanRe h m) * (h j - meanRe h m) * m j) * (1 / cntRe m)

theorem cntRe_pos (m : ι → ℝ) : 0 < cntRe m := lt_of_lt_of_le one_pos (le_max_right _ _)

/-- The mean of squared deviations is a sum of squares times weights in {0,1} over a positive count. -/
theorem varRRe_nonneg (h m : ι → ℝ) (hm : ∀ j, m j = 0 ∨ m j = 1) : 0 ≤ varRRe h m := by
  unfold varRRe
  apply mul_nonneg
  · apply Finset.sum_nonneg
    intro j _
    rcases hm j with h0 | h1
    · simp [h0]
    · rw [h1, mul_one]; exact mul_self_nonneg _
  · exact le_of_lt (one_div_pos.mpr (cntRe_pos m))

/-- The two variances agree over the reals. Expanding the square,
    ∑ (h−μ)² m = ∑ h m h − 2 μ ∑ h m + μ² ∑ m.  If ∑ m ≥ 1 the count is ∑ m and ∑ h m = μ ∑ m;
    if ∑ m < 1 no weight is 1, so all vanish and both sides are 0. -/
theorem varKRe_eq_varRRe (h m : ι → ℝ) (hm : ∀ j, m j = 0 ∨ m j = 1) : varKRe h m = varRRe h m := by
  have hexp : ∀ μ : ℝ, ∑ j, (h j - μ) * (h j - μ) * m j
      = (∑ j, h j * m j * h j) - 2 * μ * (∑ j, h j * m j) + μ * μ * ∑ j, m j := by
    intro μ
    rw [Finset.mul_sum, Finset.mul_sum, ← Finset.sum_sub_distrib, ← Finset.sum_add_distrib]
    apply Finset.sum_congr rfl
    intro j _
    ring
  by_cases hS : 1 ≤ ∑ j, m j
  · have hc : cntRe m = ∑ j, m j := max_eq_left hS
    have hSne : (∑ j, m j) ≠ 0 := ne_of_gt (lt_of_lt_of_le one_pos hS)
    unfold varKRe varRRe
    rw [hexp]
    unfold meanRe
    rw [hc]
    field_simp
    ring
  · have hall : ∀ j, m j = 0 := by
      intro j
      rcases hm j with h0 | h1
      · exact h0
      · exfalso
        apply hS
        calc (1 : ℝ) = m j := h1.symm
          _ ≤ ∑ i, m i := Finset.single_le_sum (f := m)
                (fun i _ => by rcases hm i with a | a <;> rw [a] <;> norm_num) (Finset.mem_univ j)
    simp [varKRe, varRRe, meanRe, hall]

end RealCore

/-! ### From the extended reals to the reals -/

section Coe
variable {ι : Type} [Fintype ι]

theorem coe_max (x y : ℝ) : ((max x y : ℝ) : EReal) = max (x : EReal) (y : EReal) :=
  EReal.coe_strictMono.monotone.map_max

theorem count_coe (m : ι → ℝ) : count (fun j => (m j : EReal)) = (cntRe m : EReal) := by
  simp only [count, cntRe]
  rw [coe_max, coe_sum, ONE_eq]

theorem meanOf_coe (h m : ι → ℝ) :
    meanOf (fun j => (h j : EReal)) (fun j => (m j : EReal)) = (meanRe h m : EReal) := by
  simp only [meanOf, meanRe, count_coe]
  rw [Ideal.div_coe (cntRe_pos m).ne', EReal.coe_mul, coe_sum]
  simp only [EReal.coe_mul]

theorem varK_coe (h m : ι → ℝ) :
    varK (fun j => (h j : EReal)) (fun j => (m j : EReal)) = (varKRe h m : EReal) := by
  simp only [varK, varKRe, count_coe, meanOf_coe]
  rw [Ideal.div_coe (cntRe_pos m).ne', EReal.coe_sub, EReal.coe_mul, EReal.coe_mul, coe_sum]
  simp only [EReal.coe_mul]

theorem varR_coe (h m : ι → ℝ) :
    varR (fun j => (h j : EReal)) (fun j => (m j : EReal)) = (varRRe h m : EReal) := by
  simp only [varR, varRRe, count_coe, meanOf_coe]
  rw [Ideal.div_coe (cntRe_pos m).ne', EReal.coe_mul, coe_sum]
  simp only [EReal.coe_mul, EReal.coe_sub]

/-- The reciprocal square root of a positive real is the real (√r)⁻¹. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

end Coe

end Laws

/-! ### The two forms of the normalised feature agree -/

open Laws in
/-- With real features, weights in {0,1} and real scale and shift, every quantity is real: the two variances
    agree, their common value plus ε is positive so its reciprocal square root is a real s, and
    h·(g·s) + (b − μ·(g·s)) = (h − μ)·s·g + b by distributivity. -/
theorem actK_eq_actR {ι : Type} [Fintype ι] (hv mv : ι → EReal) (g b : EReal)
    (hh : ∀ j, ∃ r : ℝ, hv j = (r : EReal)) (hm : ∀ j, mv j = 0 ∨ mv j = 1)
    (hg : ∃ r : ℝ, g = (r : EReal)) (hb : ∃ r : ℝ, b = (r : EReal)) (k : ι) :
    actK hv mv g b k = actR hv mv g b k := by
  choose h hh' using hh
  obtain rfl : hv = fun j => (h j : EReal) := funext hh'
  have hm' : ∀ j, ∃ r : ℝ, (r = 0 ∨ r = 1) ∧ mv j = (r : EReal) := by
    intro j
    rcases hm j with h0 | h1
    · exact ⟨0, Or.inl rfl, by rw [h0, EReal.coe_zero]⟩
    · exact ⟨1, Or.inr rfl, by rw [h1, EReal.coe_one]⟩
  choose m hm01 hmr using hm'
  obtain rfl : mv = fun j => (m j : EReal) := funext hmr
  obtain ⟨γ, rfl⟩ := hg
  obtain ⟨β, rfl⟩ := hb
  obtain ⟨ε, hε, hE⟩ := EPS_pos
  have hpos : 0 < varRRe h m + ε := add_pos_of_nonneg_of_pos (varRRe_nonneg h m hm01) hε
  simp only [actK, actR]
  rw [varK_coe, varR_coe, meanOf_coe, hE, varKRe_eq_varRRe h m hm01, ← EReal.coe_add, rsqrt_coe_pos hpos]
  congr 1
  simp only [← EReal.coe_mul, ← EReal.coe_sub, ← EReal.coe_add]
  congr 1
  ring

/-! ### The hidden layer is real, and the two outputs agree -/

/-- A hidden feature of real inputs, real weights and a real bias is real. -/
theorem hid_real {ι : Type} [Fintype ι] (X : ι → Fin 15 → EReal) (W1 : Fin 15 → Fin 128 → EReal)
    (b1 : Fin 128 → EReal)
    (hX : ∀ j c, ∃ r : ℝ, X j c = (r : EReal)) (hW1 : ∀ c d, ∃ r : ℝ, W1 c d = (r : EReal))
    (hb1 : ∀ d, ∃ r : ℝ, b1 d = (r : EReal))
    (d : Fin 128) (j : ι) : ∃ r : ℝ, hid X W1 b1 d j = (r : EReal) := by
  choose x hx using hX
  choose w hw using hW1
  choose β hβ using hb1
  refine ⟨(∑ c : Fin 15, x j c * w c d) + β d, ?_⟩
  simp only [hid, hx, hw, hβ]
  rw [EReal.coe_add, Laws.coe_sum]
  simp only [EReal.coe_mul]

/-- The two forms of the output agree: they differ only in the normalised feature, summand by summand. -/
theorem outK_eq_outR {ι : Type} [Fintype ι] (X : ι → Fin 15 → EReal) (mv : ι → EReal)
    (W1 : Fin 15 → Fin 128 → EReal) (b1 g b : Fin 128 → EReal)
    (W2 : Fin 128 → Fin 128 → EReal) (b2 : Fin 128 → EReal)
    (hX : ∀ j c, ∃ r : ℝ, X j c = (r : EReal)) (hm : ∀ j, mv j = 0 ∨ mv j = 1)
    (hW1 : ∀ c d, ∃ r : ℝ, W1 c d = (r : EReal))
    (hb1 : ∀ d, ∃ r : ℝ, b1 d = (r : EReal)) (hg : ∀ d, ∃ r : ℝ, g d = (r : EReal))
    (hb : ∀ d, ∃ r : ℝ, b d = (r : EReal))
    (k : ι) (e : Fin 128) : outK X mv W1 b1 g b W2 b2 k e = outR X mv W1 b1 g b W2 b2 k e := by
  simp only [outK, outR]
  refine congrArg (· * mv k) (congrArg (· + b2 e) (Finset.sum_congr rfl (fun d _ => ?_)))
  rw [actK_eq_actR (hid X W1 b1 d) mv (g d) (b d) (fun j => hid_real X W1 b1 hX hW1 hb1 d j) hm (hg d) (hb d) k]

/-! ### Renaming the tokens

  Every sum over the tokens is unchanged by a bijection of the token type, so both outputs commute with it. -/

namespace Laws

theorem count_reindex {ι κ : Type} [Fintype ι] [Fintype κ] (σ : κ ≃ ι) (mv : ι → EReal) :
    count (fun j => mv (σ j)) = count mv := by
  simp only [count]; rw [Equiv.sum_comp σ mv]

theorem meanOf_reindex {ι κ : Type} [Fintype ι] [Fintype κ] (σ : κ ≃ ι) (hv mv : ι → EReal) :
    meanOf (fun j => hv (σ j)) (fun j => mv (σ j)) = meanOf hv mv := by
  simp only [meanOf, count_reindex σ mv]
  rw [Equiv.sum_comp σ (fun j => hv j * mv j)]

theorem varR_reindex {ι κ : Type} [Fintype ι] [Fintype κ] (σ : κ ≃ ι) (hv mv : ι → EReal) :
    varR (fun j => hv (σ j)) (fun j => mv (σ j)) = varR hv mv := by
  simp only [varR, count_reindex σ mv, meanOf_reindex σ hv mv]
  rw [Equiv.sum_comp σ (fun j => (hv j - meanOf hv mv) * (hv j - meanOf hv mv) * mv j)]

theorem varK_reindex {ι κ : Type} [Fintype ι] [Fintype κ] (σ : κ ≃ ι) (hv mv : ι → EReal) :
    varK (fun j => hv (σ j)) (fun j => mv (σ j)) = varK hv mv := by
  simp only [varK, count_reindex σ mv, meanOf_reindex σ hv mv]
  rw [Equiv.sum_comp σ (fun j => hv j * mv j * hv j)]

end Laws

open Laws in
theorem outR_reindex {ι κ : Type} [Fintype ι] [Fintype κ] (σ : κ ≃ ι) (X : ι → Fin 15 → EReal)
    (mv : ι → EReal) (W1 : Fin 15 → Fin 128 → EReal)
    (b1 g b : Fin 128 → EReal) (W2 : Fin 128 → Fin 128 → EReal) (b2 : Fin 128 → EReal)
    (k : κ) (e : Fin 128) :
    outR (fun j => X (σ j)) (fun j => mv (σ j)) W1 b1 g b W2 b2 k e
      = outR X mv W1 b1 g b W2 b2 (σ k) e := by
  have hhid : ∀ d, hid (fun j => X (σ j)) W1 b1 d = fun j => hid X W1 b1 d (σ j) := by
    intro d; funext j; rfl
  simp only [outR, actR, hhid, meanOf_reindex, varR_reindex]

open Laws in
theorem outK_reindex {ι κ : Type} [Fintype ι] [Fintype κ] (σ : κ ≃ ι) (X : ι → Fin 15 → EReal)
    (mv : ι → EReal) (W1 : Fin 15 → Fin 128 → EReal)
    (b1 g b : Fin 128 → EReal) (W2 : Fin 128 → Fin 128 → EReal) (b2 : Fin 128 → EReal)
    (k : κ) (e : Fin 128) :
    outK (fun j => X (σ j)) (fun j => mv (σ j)) W1 b1 g b W2 b2 k e
      = outK X mv W1 b1 g b W2 b2 (σ k) e := by
  have hhid : ∀ d, hid (fun j => X (σ j)) W1 b1 d = fun j => hid X W1 b1 d (σ j) := by
    intro d; funext j; rfl
  simp only [outK, actK, hhid, meanOf_reindex, varK_reindex]

end Cert.BatchNorm

end
-- ==== Proof.Claims.lean ====
/-
  The five claims.

  Both idealized programs compute, for token `(a, b, n)` and output feature `e`, a masked batch normalisation between
  two linear layers. The kernel takes the variance as the mean of squares minus the squared mean and folds scale and
  shift before applying them; the reference takes the mean of squared deviations and centres, normalises, scales and
  shifts in that order. For finite inputs the two are one function: the weights are zeros and ones, so their sum is a
  natural number, and either it is at least one and equals the floored count, or it is zero and the mean vanishes; the
  variance is then a non-negative real, its sum with ε positive, the inverse square root a real, and the affine step is
  distributivity over the reals. The kernel sums over grid points and block rows, the reference over the three token
  axes: the same rows, regrouped.
-/
import proofs.«131541_j88476326297844_1_alg».proof.Defs
import proofs.«131541_j88476326297844_1_alg».proof.Proof.Gen.Kernel.Frame
import proofs.«131541_j88476326297844_1_alg».proof.Proof.Gen.KernelIdeal.Frame
import proofs.«131541_j88476326297844_1_alg».proof.Proof.Gen.ReferenceIdeal.Run
import proofs.«131541_j88476326297844_1_alg».proof.Proof.Gen.Pre_finite_inputs
import proofs.«131541_j88476326297844_1_alg».proof.Proof.KernelRun
import proofs.«131541_j88476326297844_1_alg».proof.Proof.KernelValue
import proofs.«131541_j88476326297844_1_alg».proof.Proof.RefSide
import proofs.«131541_j88476326297844_1_alg».proof.Proof.Finite
import proofs.«131541_j88476326297844_1_alg».proof.Proof.Laws

set_option maxRecDepth 16384

noncomputable section

namespace Cert.Proof.Claims

open Idealize.ShloMosaic Idealize.ShloMosaic.TcCoe Idealize.SL.Sem Idealize.ShloMosaic.ValueIdx
open Cert.Tokens Cert.BatchNorm

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- The two results are one array: at every index the reference's form R over its tokens is the kernel's form K over
    its tokens, for finite inputs that agree. -/
theorem results_agree (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v43 (F := Ideal) m' c
      = Cert.KernelIdeal.Gen.W5 m ρ c (Proc.devRef .tc Cert.KernelIdeal.main_v25) := by
  obtain ⟨f0, f2, f3, f4, f5, f6, f7⟩ := Cert.Finite.real_of_pre m hpre c
  funext i
  obtain ⟨a, b, n, e, rfl⟩ : ∃ (a : Fin 8) (b : Fin 128) (n : Fin 256) (e : Fin 128), i = ix4 a b n e :=
    ⟨i 0, i 1, i 2, i 3, eq_ix4 i⟩
  refine (Cert.RefSide.ref_eq m' c a b n e).trans ?_
  rw [h0, h1, h2, h3, h4, h5, h6, h7]
  refine Eq.trans ?_ (Cert.KernelSide.result_at m ρ c (a, b, n) e).symm
  rw [outK_eq_outR (Cert.KernelSide.feat m c) (Cert.KernelSide.wgt m c) (Cert.KernelSide.w1 m c) (Cert.KernelSide.bias1 m c)
    (Cert.KernelSide.gam m c) (Cert.KernelSide.bet m c) (Cert.KernelSide.w2 m c) (Cert.KernelSide.bias2 m c)
    (fun j k => f0 _) (fun j => Cert.RefSide.tokM_zero_or_one _ (toR j)) (fun k d => f2 _) (fun d => f3 _) (fun d => f4 _) (fun d => f5 _)]
  refine Eq.trans ?_ (outR_reindex toR
    (Cert.RefSide.tokX (m ((c.tc : Thread Cert.KernelIdeal.nD Cert.KernelIdeal.τ).loc Cert.KernelIdeal.main_arg0)))
    (Cert.RefSide.tokM (m ((c.tc : Thread Cert.KernelIdeal.nD Cert.KernelIdeal.τ).loc Cert.KernelIdeal.main_arg1)))
    (Cert.KernelSide.w1 m c) (Cert.KernelSide.bias1 m c) (Cert.KernelSide.gam m c) (Cert.KernelSide.bet m c)
    (Cert.KernelSide.w2 m c) (Cert.KernelSide.bias2 m c) (toR.symm (a, b, n)) e).symm
  rw [Equiv.apply_symm_apply]

/-- The two idealized programs, from memories that agree on the arguments, end with equal results and unchanged
    arguments. -/
theorem algebraic : Cert.algebraic_KernelIdeal_ReferenceIdeal := by
  intro m ρ m' ρ' hpre hagree
  refine ⟨fun c => Cert.KernelIdeal.Gen.W5 m ρ c (Proc.devRef .tc Cert.KernelIdeal.main_v25),
    fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩)
      (Cert.KernelIdeal.Run.run_result (F := Ideal) m ρ)
  · refine (θ_run Cert.ReferenceIdeal.defs _ _).mono (fun r h c => ⟨(h c).1.trans ?_, (h c).2.1.trans (hagree c).2.1, (h c).2.2⟩)
      (Cert.ReferenceIdeal.Value.run (F := Ideal) m' ρ')
    obtain ⟨h0, h1, h2, h3, h4, h5, h6, h7⟩ := hagree c
    exact results_agree m ρ m' c hpre h0 h1 h2 h3 h4 h5 h6 h7

end Cert.Proof.Claims

end
-- ==== Proof.lean ====
/-
  The proof of the certificate's claim.

  Three programs: the kernel as printed, its idealization (the same text read on the extended reals: the ideal pass
  rewrote nothing), and the reference's idealization. Each runs to the end without a fault and leaves its arguments
  unchanged; and the two idealized programs, on finite inputs that agree, produce equal results. The argument is in
  Proof/Claims.lean and the modules it imports; here the five claims are put behind the witnesses of the programs'
  stated facts.
-/
import proofs.«131541_j88476326297844_1_alg».proof.Defs
import proofs.«131541_j88476326297844_1_alg».proof.Proof.Claims
import proofs.«131541_j88476326297844_1_alg».proof.Proof.Gen.Kernel
import proofs.«131541_j88476326297844_1_alg».proof.Proof.Gen.KernelIdeal
import proofs.«131541_j88476326297844_1_alg».proof.Proof.Gen.ReferenceIdeal
import proofs.«131541_j88476326297844_1_alg».proof.Proof.Gen.ReferenceIdeal.Run
import proofs.«131541_j88476326297844_1_alg».proof.Proof.Gen.ReferenceIdeal.Read
import proofs.«131541_j88476326297844_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference_ideal, Claims.preserves, Claims.algebraic⟩

end Cert.Proof

end
